-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S64x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S128 .f32) (main_arg5 : FVec F S128 .f32) (main_arg6 : FVec F S64x128 .f32) (main_arg7 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩

abbrev nBuf : Space → Nat
  | .hbm => 67
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x64, .f32⟩
  | .hbm, ⟨50, _⟩ => ⟨S800000x1, .f32⟩
  | .hbm, ⟨51, _⟩ => ⟨S800000x64, .f32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000, .f32⟩
  | .hbm, ⟨58, _⟩ => ⟨S50000x1, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_v43) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v44) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  What both programs compute, stated once over literal shapes and imported by every other module.

  A row `a` of 128 entries is normalised: its mean `μ = (Σ a) / 128`, its variance `v = (Σ (a − μ)²) / 128`, and each
  entry becomes `(a q − μ) · (v + ε)^(−1/2) · w q + β q`; a residual entry `r q` is added, and the total `y` leaves as
  `y · σ(y)` with `σ(y) = 1 / (1 + e^(−y))`. All of it is on the extended reals with the exact operations, and the two
  literals (128 and ε) are kept as the binary words the programs carry, so that they are never evaluated.

  `denseOut` is that row function laid over a table of 50000 nodes: row `n` of the normalised operand is the product of
  row `n` of an aggregated feature table [50000, 64] with a weight matrix [64, 128] plus a bias, and the residual is the
  product of row `n` of the node features with a second weight matrix plus its bias. The four row parameters arrive as
  one-row tables [1, 128].
-/
import Idealize.ShloMosaic.PureOps.Ideal
import Idealize.ShloMosaic.Lib.ValueIdx

noncomputable section

namespace Cert.Spec

open Idealize.ShloMosaic Idealize.ShloMosaic.ValueIdx
open scoped BigOperators

/-- The word of 128.0, the length of a row. -/
def c128 : EReal := Ideal.ofBits .f32 0x43000000#32

/-- The word of the variance's offset ε. -/
def eps : EReal := Ideal.ofBits .f32 0x3727C5AC#32

/-- The mean of a row of 128 entries. -/
def rowMean (a : Fin 128 → EReal) : EReal := Ideal.div (∑ k : Fin 128, a k) c128

/-- A row's variance about its own mean. -/
def rowVar (a : Fin 128 → EReal) : EReal := rowMean fun k => (a k - rowMean a) * (a k - rowMean a)

/-- The sum that is gated: the normalised, scaled and shifted entry plus the residual entry. -/
def rowPre (a w β r : Fin 128 → EReal) (q : Fin 128) : EReal :=
  ((a q - rowMean a) * Ideal.rsqrt (rowVar a + eps) * w q + β q) + r q

/-- One output entry: `y · σ(y)` at `y = rowPre …`. -/
def rowOut (a w β r : Fin 128 → EReal) (q : Fin 128) : EReal :=
  rowPre a w β r q * Ideal.logistic (rowPre a w β r q)

/-- Row `n` of a table [50000, 64] times a matrix [64, 128], at column `k`. -/
def rowDot (t : (⟨2, ![50000, 64]⟩ : Shape).Idx → EReal) (W : (⟨2, ![64, 128]⟩ : Shape).Idx → EReal)
    (n : Fin 50000) (k : Fin 128) : EReal :=
  ∑ j : Fin 64, t (ix2 n j) * W (ix2 j k)

/-- The whole result table from the aggregated features `g`, the node features `x`, the two weight matrices and the four
    one-row parameter tables (bias, scale, shift, residual bias). -/
def denseOut (g x : (⟨2, ![50000, 64]⟩ : Shape).Idx → EReal) (W R : (⟨2, ![64, 128]⟩ : Shape).Idx → EReal)
    (b w β rb : (⟨2, ![1, 128]⟩ : Shape).Idx → EReal) : (⟨2, ![50000, 128]⟩ : Shape).Idx → EReal := fun i =>
  rowOut (fun k => rowDot g W (i 0) k + b (ix2 (0 : Fin 1) k)) (fun k => w (ix2 (0 : Fin 1) k)) (fun k => β (ix2 (0 : Fin 1) k))
    (fun k => rowDot x R (i 0) k + rb (ix2 (0 : Fin 1) k)) (i 1)

end Cert.Spec

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibRowLift.lean ====
/-
  A row index lifted back along the columns: for a reduction of `[M, N]` along its columns to `[M]`, the source index over
  row `r` with column coordinate `k` is `(r, k)`.
-/
import Idealize.ShloMosaic.Lib.ValueIdx
import Idealize.ShloMosaic.PureOps.Ideal.Laws

namespace Cert.RowLift

open Idealize.ShloMosaic Idealize.ShloMosaic.ValueIdx

/-- The source index over row `r` whose coordinate on the reduced column axis is `k` is `(r, k)`. -/
theorem lift_row {M N : ℕ} (h : (⟨2, ![M, N]⟩ : Shape).Reduces [(1 : Fin 2)] ⟨1, ![M]⟩) (r : Fin M) (k : Fin N) :
    h.lift (ix1 r) k = ix2 r k := by
  funext c
  apply Fin.ext
  match c with
  | ⟨0, _⟩ => rfl
  | ⟨1, _⟩ => rfl

end Cert.RowLift
-- ==== Proof.KerRow.lean ====
/-
  One entry of the block the body stores, read at its row and column.

  The body takes a block of 5000 rows. Row `p` of the operand that is normalised is the product of row `p` of the block
  of aggregated features [5000, 64] with a weight matrix [64, 128], plus a bias row; the residual row is the same kind of
  product from the block of node features. Each row of 128 entries is centred by its own mean, scaled by the inverse square
  root of its own variance plus a small offset, multiplied by a scale row and shifted by a shift row; the residual is added
  and the total `y` leaves as `y · σ(y)`. Nothing mixes two rows, so entry `(p, q)` of the stored block is the
  row function of the specification at the two product rows of `p`, read at column `q`.

  The steps: the two "product plus bias" tables at an index; a column of row sums cast to [5000, 1] and laid back over the
  128 columns; the mean and the inverse deviation of a row; the assembled entry.
-/
import proofs.«177523_j83915071030244_2_alg».proof.Proof.Gen.KernelIdeal.Skeleton
import proofs.«177523_j83915071030244_2_alg».proof.Proof.Spec
import proofs.«177523_j83915071030244_2_alg».proof.Proof.LibDenseRows
import proofs.«177523_j83915071030244_2_alg».proof.Proof.LibRowLift
import Idealize.ShloMosaic.Lib.ValueIdx
import Idealize.ShloMosaic.Lib.ValueLayout
import Idealize.ShloMosaic.Lib.Pipeline.Value
import Idealize.ShloMosaic.PureOps.Ideal

noncomputable section

namespace Cert.KerDense

open Idealize.ShloMosaic Idealize.ShloMosaic.ValueIdx Cert.KernelIdeal Cert.KernelIdeal.Gen
open scoped BigOperators

/-! ## A column of per-row values: [a] cast to [a, 1], and [a, 1] laid over b columns -/

section Column
variable {α : Type}

/-- A vector [a] cast to a column [a, 1] reads, at (i, u), the vector at i. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast over b columns reads, at (p, c), the column at row p. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## A block of rows times a matrix, plus a bias row -/

/-- The table [5000, 128] whose row p is row p of A times W plus the one row b: the matrix product into the zero
    accumulator (the narrowing of the operands' format is the identity on exact values) plus b laid along every row. -/
def rowsOf (A : Vec Ideal S5000x64 .f32) (W : Vec Ideal S64x128 .f32) (b : Vec Ideal S1x128 .f32) : FVec Ideal S5000x128 .f32 :=
  addf (matmul dot_S5000x64_S64x128_S5000x128_1_0_0_1_n_n none (truncf .bf16 A bitsLt_bf16_f32) (truncf .bf16 W bitsLt_bf16_f32)
      (constant (F := Ideal) S5000x128 .f32 0x00000000#32))
    (broadcastTo S5000x128 (shapeCast S1x128 b shapeCasts_S1x128_S1x128) broadcasts_S1x128_S5000x128)

/-- Its entry (p, k): the dot product of row p of A with column k of W, plus b at k. -/
theorem rowsOf_apply (A : Vec Ideal S5000x64 .f32) (W : Vec Ideal S64x128 .f32) (b : Vec Ideal S1x128 .f32) (p : Fin 5000) (k : Fin 128) :
    rowsOf A W b (ix2 p k) = (∑ j : Fin 64, A (ix2 p j) * W (ix2 j k)) + b (ix2 (0 : Fin 1) k) := by
  unfold rowsOf
  rw [addf_apply]
  refine congrArg₂ (· + ·) ?_ ?_
  · exact Cert.DenseRows.matmul_zero_plain_apply dot_S5000x64_S64x128_S5000x128_1_0_0_1_n_n rfl rfl rfl rfl
      (fun j k => rfl) (fun j k => rfl) (truncf .bf16 A bitsLt_bf16_f32) (truncf .bf16 W bitsLt_bf16_f32) p k
  · rw [shapeCast_self]
    exact broadcastTo_1b_ab_apply b broadcasts_S1x128_S5000x128 p k

/-! ## The mean of every row, as a column -/

/-- The column [5000, 1] of row means of a table [5000, 128]: the sum along the columns from the zero word, cast to a
    column, divided by the word of 128. -/
def meanCol (v : FVec Ideal S5000x128 .f32) : FVec Ideal S5000x1 .f32 :=
  divf (shapeCast S5000x1 (multiReduction (F := Ideal) .add [1] S5000 v 0x00000000#32 reduces_S5000x128_S5000 (.inl rfl) rfl)
      shapeCasts_S5000_S5000x1)
    (broadcast S5000x1 (Scalar.ofBits (F := Ideal) .f32 0x43000000#32))

/-- Its entry at row p is the mean of row p. -/
theorem meanCol_apply (v : FVec Ideal S5000x128 .f32) (p : Fin 5000) (u : Fin 1) :
    meanCol v (ix2 p u) = Cert.Spec.rowMean fun k => v (ix2 p k) := by
  unfold meanCol Cert.Spec.rowMean Cert.Spec.c128
  rw [divf_apply, broadcast_apply, shapeCast_col_apply]
  refine congrArg₂ Ideal.div ?_ rfl
  exact Cert.DenseRows.laneSum_apply v reduces_S5000x128_S5000 (.inl rfl) rfl (Cert.RowLift.lift_row reduces_S5000x128_S5000) p

/-- A table with its rows' means taken off. -/
def centred (v : FVec Ideal S5000x128 .f32) : FVec Ideal S5000x128 .f32 :=
  subf v (broadcastTo S5000x128 (meanCol v) broadcasts_S5000x1_S5000x128)

theorem centred_apply (v : FVec Ideal S5000x128 .f32) (p : Fin 5000) (k : Fin 128) :
    centred v (ix2 p k) = v (ix2 p k) - Cert.Spec.rowMean fun k => v (ix2 p k) := by
  unfold centred
  rw [subf_apply, broadcastTo_col_apply, meanCol_apply]

/-! ## The inverse deviation of every row, as a column -/

/-- The column of the inverse square roots of (variance + offset): the mean of the squared centred row, plus the offset's
    word, under the inverse square root. -/
def invDevCol (v : FVec Ideal S5000x128 .f32) : FVec Ideal S5000x1 .f32 :=
  rsqrt (addf (meanCol (mulf (centred v) (centred v))) (broadcast S5000x1 (Scalar.ofBits (F := Ideal) .f32 0x3727C5AC#32)))

theorem invDevCol_apply (v : FVec Ideal S5000x128 .f32) (p : Fin 5000) (u : Fin 1) :
    invDevCol v (ix2 p u) = Ideal.rsqrt (Cert.Spec.rowVar (fun k => v (ix2 p k)) + Cert.Spec.eps) := by
  unfold invDevCol Cert.Spec.rowVar Cert.Spec.eps
  show Ideal.rsqrt (meanCol (mulf (centred v) (centred v)) (ix2 p u) + Ideal.ofBits .f32 0x3727C5AC#32) = _
  rw [meanCol_apply]
  refine congrArg (fun z => Ideal.rsqrt (z + Ideal.ofBits .f32 0x3727C5AC#32)) ?_
  refine congrArg Cert.Spec.rowMean (funext fun k => ?_)
  rw [mulf_apply, centred_apply]

/-! ## The normalised and scaled table -/

/-- The long part of the body's arithmetic: the centred product table, times the inverse deviation laid over the columns,
    times the scale row laid down the rows (a cast of a block to its own shape is the identity). -/
theorem scaled_eq (x0 : Vec Ideal S5000x64 .f32) (x2 : Vec Ideal S64x128 .f32) (x4 x6 : Vec Ideal S1x128 .f32) :
    k0_pay4 (F := Ideal) x0 x2 x4 x6 =
      mulf (mulf (centred (rowsOf (shapeCast S5000x64 x0 shapeCasts_S5000x64_S5000x64) x2 x4))
          (broadcastTo S5000x128 (invDevCol (rowsOf (shapeCast S5000x64 x0 shapeCasts_S5000x64_S5000x64) x2 x4))
            broadcasts_S5000x1_S5000x128))
        (broadcastTo S5000x128 (shapeCast S1x128 x6 shapeCasts_S1x128_S1x128) broadcasts_S1x128_S5000x128) := rfl

/-- Its entry (p, q): the centred entry of row p, times that row's inverse deviation, times the scale at q. -/
theorem scaled_apply (x0 : Vec Ideal S5000x64 .f32) (x2 : Vec Ideal S64x128 .f32) (x4 x6 : Vec Ideal S1x128 .f32)
    (p : Fin 5000) (q : Fin 128) :
    k0_pay4 (F := Ideal) x0 x2 x4 x6 (ix2 p q) =
      (rowsOf x0 x2 x4 (ix2 p q) - Cert.Spec.rowMean fun k => rowsOf x0 x2 x4 (ix2 p k))
        * Ideal.rsqrt (Cert.Spec.rowVar (fun k => rowsOf x0 x2 x4 (ix2 p k)) + Cert.Spec.eps) * x6 (ix2 (0 : Fin 1) q) := by
  rw [scaled_eq, shapeCast_self, shapeCast_self, mulf_apply, mulf_apply, centred_apply, broadcastTo_col_apply, invDevCol_apply]
  rw [broadcastTo_1b_ab_apply]

/-- The shift row laid down the rows. -/
theorem shift_apply (x7 : Vec Ideal S1x128 .f32) (p : Fin 5000) (q : Fin 128) :
    k0_pay5 (F := Ideal) x7 (ix2 p q) = x7 (ix2 (0 : Fin 1) q) := by
  unfold k0_pay5
  rw [shapeCast_self]
  exact broadcastTo_1b_ab_apply x7 broadcasts_S1x128_S5000x128 p q

/-! ## The stored block -/

/-- What the gate is applied to: the normalised, scaled and shifted table plus the residual table. -/
def preGate (x0 x1 : Vec Ideal S5000x64 .f32) (x2 x3 : Vec Ideal S64x128 .f32) (x4 x5 x6 x7 : Vec Ideal S1x128 .f32) :
    FVec Ideal S5000x128 .f32 :=
  addf (addf (k0_pay4 (F := Ideal) x0 x2 x4 x6) (k0_pay5 (F := Ideal) x7)) (rowsOf x1 x3 x5)

/-- The block the body stores, from the eight blocks it loads: aggregated features, node features, the two weight matrices,
    the bias, the residual bias, the scale and the shift. -/
def blockOut (x0 x1 : Vec Ideal S5000x64 .f32) (x2 x3 : Vec Ideal S64x128 .f32) (x4 x5 x6 x7 : Vec Ideal S1x128 .f32) :
    FVec Ideal S5000x128 .f32 :=
  k0_pay1 (F := Ideal) (k0_pay2 (F := Ideal) x1) (k0_pay3 (F := Ideal) x3) (k0_pay4 (F := Ideal) x0 x2 x4 x6)
    (k0_pay5 (F := Ideal) x7) x5

/-- It is the pre-gate table times its own logistic. -/
theorem blockOut_eq (x0 x1 : Vec Ideal S5000x64 .f32) (x2 x3 : Vec Ideal S64x128 .f32) (x4 x5 x6 x7 : Vec Ideal S1x128 .f32) :
    blockOut x0 x1 x2 x3 x4 x5 x6 x7 =
      mulf (preGate x0 x1 x2 x3 x4 x5 x6 x7) (logistic (preGate x0 x1 x2 x3 x4 x5 x6 x7)) := rfl

/-- The pre-gate table at (p, q) is the specification's gated sum for row p at column q. -/
theorem preGate_apply (x0 x1 : Vec Ideal S5000x64 .f32) (x2 x3 : Vec Ideal S64x128 .f32) (x4 x5 x6 x7 : Vec Ideal S1x128 .f32)
    (p : Fin 5000) (q : Fin 128) :
    preGate x0 x1 x2 x3 x4 x5 x6 x7 (ix2 p q) =
      Cert.Spec.rowPre (fun k => (∑ j : Fin 64, x0 (ix2 p j) * x2 (ix2 j k)) + x4 (ix2 (0 : Fin 1) k))
        (fun k => x6 (ix2 (0 : Fin 1) k)) (fun k => x7 (ix2 (0 : Fin 1) k))
        (fun k => (∑ j : Fin 64, x1 (ix2 p j) * x3 (ix2 j k)) + x5 (ix2 (0 : Fin 1) k)) q := by
  unfold preGate Cert.Spec.rowPre
  rw [addf_apply, addf_apply, scaled_apply, shift_apply]
  simp only [rowsOf_apply]

/-- THE ENTRY (p, q) of the stored block: the specification's row function at the two product rows of p. -/
theorem blockOut_apply (x0 x1 : Vec Ideal S5000x64 .f32) (x2 x3 : Vec Ideal S64x128 .f32) (x4 x5 x6 x7 : Vec Ideal S1x128 .f32)
    (p : Fin 5000) (q : Fin 128) :
    blockOut x0 x1 x2 x3 x4 x5 x6 x7 (ix2 p q) =
      Cert.Spec.rowOut (fun k => (∑ j : Fin 64, x0 (ix2 p j) * x2 (ix2 j k)) + x4 (ix2 (0 : Fin 1) k))
        (fun k => x6 (ix2 (0 : Fin 1) k)) (fun k => x7 (ix2 (0 : Fin 1) k))
        (fun k => (∑ j : Fin 64, x1 (ix2 p j) * x3 (ix2 j k)) + x5 (ix2 (0 : Fin 1) k)) q := by
  rw [blockOut_eq]
  unfold Cert.Spec.rowOut
  show preGate x0 x1 x2 x3 x4 x5 x6 x7 (ix2 p q) * Ideal.logistic (preGate x0 x1 x2 x3 x4 x5 x6 x7 (ix2 p q)) = _
  rw [preGate_apply]

/-! ## The stored block against the whole table

Row p of a block is row n of the whole table when the block's loads agree with the arrays there: the two row blocks at
rows p and n, the whole-matrix and one-row blocks entry by entry. -/

/-- Entry (p, q) of the stored block is entry (n, q) of the specification's table, for blocks that read the arrays so. -/
theorem blockOut_eq_denseOut (x0 x1 : Vec Ideal S5000x64 .f32) (x2 x3 : Vec Ideal S64x128 .f32) (x4 x5 x6 x7 : Vec Ideal S1x128 .f32)
    (g x : (⟨2, ![50000, 64]⟩ : Shape).Idx → EReal) (W R : (⟨2, ![64, 128]⟩ : Shape).Idx → EReal)
    (b w β rb : (⟨2, ![1, 128]⟩ : Shape).Idx → EReal) (p : Fin 5000) (q : Fin 128) (n : Fin 50000)
    (h0 : ∀ k : Fin 64, x0 (ix2 p k) = g (ix2 n k)) (h1 : ∀ k : Fin 64, x1 (ix2 p k) = x (ix2 n k))
    (h2 : ∀ (a : Fin 64) (k : Fin 128), x2 (ix2 a k) = W (ix2 a k)) (h3 : ∀ (a : Fin 64) (k : Fin 128), x3 (ix2 a k) = R (ix2 a k))
    (h4 : ∀ k : Fin 128, x4 (ix2 (0 : Fin 1) k) = b (ix2 (0 : Fin 1) k)) (h5 : ∀ k : Fin 128, x5 (ix2 (0 : Fin 1) k) = rb (ix2 (0 : Fin 1) k))
    (h6 : ∀ k : Fin 128, x6 (ix2 (0 : Fin 1) k) = w (ix2 (0 : Fin 1) k)) (h7 : ∀ k : Fin 128, x7 (ix2 (0 : Fin 1) k) = β (ix2 (0 : Fin 1) k)) :
    blockOut x0 x1 x2 x3 x4 x5 x6 x7 (ix2 p q) = Cert.Spec.denseOut g x W R b w β rb (ix2 n q) := by
  rw [blockOut_apply]
  unfold Cert.Spec.denseOut Cert.Spec.rowDot
  simp only [h0, h1, h2, h3, h4, h5, h6, h7]

/-- The same at indices not yet split into coordinates. -/
theorem blockOut_at (x0 x1 : Vec Ideal S5000x64 .f32) (x2 x3 : Vec Ideal S64x128 .f32) (x4 x5 x6 x7 : Vec Ideal S1x128 .f32)
    (g x : (⟨2, ![50000, 64]⟩ : Shape).Idx → EReal) (W R : (⟨2, ![64, 128]⟩ : Shape).Idx → EReal)
    (b w β rb : (⟨2, ![1, 128]⟩ : Shape).Idx → EReal) (j : (⟨2, ![5000, 128]⟩ : Shape).Idx) (i : (⟨2, ![50000, 128]⟩ : Shape).Idx)
    (hq : i 1 = j 1)
    (h0 : ∀ k : Fin 64, x0 (ix2 (j 0) k) = g (ix2 (i 0) k)) (h1 : ∀ k : Fin 64, x1 (ix2 (j 0) k) = x (ix2 (i 0) k))
    (h2 : ∀ (a : Fin 64) (k : Fin 128), x2 (ix2 a k) = W (ix2 a k)) (h3 : ∀ (a : Fin 64) (k : Fin 128), x3 (ix2 a k) = R (ix2 a k))
    (h4 : ∀ k : Fin 128, x4 (ix2 (0 : Fin 1) k) = b (ix2 (0 : Fin 1) k)) (h5 : ∀ k : Fin 128, x5 (ix2 (0 : Fin 1) k) = rb (ix2 (0 : Fin 1) k))
    (h6 : ∀ k : Fin 128, x6 (ix2 (0 : Fin 1) k) = w (ix2 (0 : Fin 1) k)) (h7 : ∀ k : Fin 128, x7 (ix2 (0 : Fin 1) k) = β (ix2 (0 : Fin 1) k)) :
    blockOut x0 x1 x2 x3 x4 x5 x6 x7 j = Cert.Spec.denseOut g x W R b w β rb i := by
  have hj : j = ix2 (j 0) (j 1) := eq_ix2 j
  have hi : i = ix2 (i 0) (j 1) := by rw [← hq]; exact eq_ix2 i
  rw [hj, hi]
  exact blockOut_eq_denseOut x0 x1 x2 x3 x4 x5 x6 x7 g x W R b w β rb (j 0) (j 1) (i 0) h0 h1 h2 h3 h4 h5 h6 h7

end Cert.KerDense

end
-- ==== Proof.KerArray.lean ====
/-
  From the blocks the grid's points write back to the whole result table.

  The grid has ten points. Point t stages rows 5000 t … 5000 t + 4999 of the aggregated features and of the node
  features, the two weight matrices whole and the four one-row parameter tables whole, and writes back rows
  5000 t … 5000 t + 4999 of the result. Row p of what it writes back is the specification's row function at row
  5000 t + p of the two tables, so each write-back is a block of ONE table, the specification's, and the ten blocks tile
  its 50000 rows: the result array ends holding that table.
-/
import proofs.«177523_j83915071030244_2_alg».proof.Proof.Gen.KernelIdeal.Value
import proofs.«177523_j83915071030244_2_alg».proof.Proof.KerRow
import proofs.«177523_j83915071030244_2_alg».proof.Proof.Spec
import Idealize.ShloMosaic.Lib.Pipeline.Value

noncomputable section

namespace Cert.KerDense

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-! ## Where each window's block sits -/

/-- The index maps over the grid: the two row-blocked inputs and the output are at row block t, column block 0; the six
    whole inputs are at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- Every row block is some point's. -/
theorem rowBlock_onto : ∀ q : Fin 10, ∃ t : Fin cfg0.N, win0_8.index t = ![q.val, 0] :=
  (by decide +kernel : ∀ q : Fin 10, ∃ t : Fin grid0.N, win0_8.index t = ![q.val, 0])

/-! ## A window's block read at coordinates -/

/-- Row p of point t's block of the aggregated features is row 5000 t + p of the array. -/
theorem aggRows_apply (c : Dev nD) (A : Buf (Elt Ideal) ((c : Thread nD τ).loc main_v43)) (t : Fin cfg0.N) (p : Fin 5000)
    (k : Fin 64) (n : Fin 50000) (hn : n.val = t.val * 5000 + p.val) :
    (((cfg0.win 0).blk t).view.read (Elt Ideal) A : Vec Ideal S5000x64 .f32) (ix2 p k) = (A : S50000x64.Idx → EReal) (ix2 n k) := by
  obtain ⟨e0, e1, -⟩ := blockIndex t
  rw [View.read_apply]
  refine congrArg (A : S50000x64.Idx → EReal) (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

/-- Row p of point t's block of the node features is row 5000 t + p of the array. -/
theorem nodeRows_apply (c : Dev nD) (A : Buf (Elt Ideal) ((c : Thread nD τ).loc main_arg0)) (t : Fin cfg0.N) (p : Fin 5000)
    (k : Fin 64) (n : Fin 50000) (hn : n.val = t.val * 5000 + p.val) :
    (((cfg0.win 1).blk t).view.read (Elt Ideal) A : Vec Ideal S5000x64 .f32) (ix2 p k) = (A : S50000x64.Idx → EReal) (ix2 n k) := by
  obtain ⟨-, -, e0, e1, -⟩ := blockIndex t
  rw [View.read_apply]
  refine congrArg (A : S50000x64.Idx → EReal) (funext fun a => Fin.ext ?_)
  match a with
  | ⟨0, _⟩ => show win0_1.index t (0 : Fin 2) * 5000 + 1 * p.val = n.val; omega
  | ⟨1, _⟩ => show win0_1.index t (1 : Fin 2) * 64 + 1 * k.val = k.val; omega

/-- The block of the first weight matrix is the matrix. -/
theorem weight_apply (c : Dev nD) (A : Buf (Elt Ideal) ((c : Thread nD τ).loc main_arg2)) (t : Fin cfg0.N) (a : Fin 64) (k : Fin 128) :
    (((cfg0.win 2).blk t).view.read (Elt Ideal) A : Vec Ideal S64x128 .f32) (ix2 a k) = (A : S64x128.Idx → EReal) (ix2 a k) := by
  obtain ⟨-, -, -, -, e0, e1, -⟩ := blockIndex t
  rw [View.read_apply]
  refine congrArg (A : S64x128.Idx → EReal) (funext fun d => Fin.ext ?_)
  match d with
  | ⟨0, _⟩ => show win0_2.index t (0 : Fin 2) * 64 + 1 * a.val = a.val; omega
  | ⟨1, _⟩ => show win0_2.index t (1 : Fin 2) * 128 + 1 * k.val = k.val; omega

/-- The block of the residual weight matrix is the matrix. -/
theorem resWeight_apply (c : Dev nD) (A : Buf (Elt Ideal) ((c : Thread nD τ).loc main_arg6)) (t : Fin cfg0.N) (a : Fin 64) (k : Fin 128) :
    (((cfg0.win 3).blk t).view.read (Elt Ideal) A : Vec Ideal S64x128 .f32) (ix2 a k) = (A : S64x128.Idx → EReal) (ix2 a k) := by
  obtain ⟨-, -, -, -, -, -, e0, e1, -⟩ := blockIndex t
  rw [View.read_apply]
  refine congrArg (A : S64x128.Idx → EReal) (funext fun d => Fin.ext ?_)
  match d with
  | ⟨0, _⟩ => show win0_3.index t (0 : Fin 2) * 64 + 1 * a.val = a.val; omega
  | ⟨1, _⟩ => show win0_3.index t (1 : Fin 2) * 128 + 1 * k.val = k.val; omega

/-- The block of the bias row is the row. -/
theorem bias_apply (c : Dev nD) (A : Buf (Elt Ideal) ((c : Thread nD τ).loc main_v44)) (t : Fin cfg0.N) (k : Fin 128) :
    (((cfg0.win 4).blk t).view.read (Elt Ideal) A : Vec Ideal S1x128 .f32) (ix2 (0 : Fin 1) k) = (A : S1x128.Idx → EReal) (ix2 (0 : Fin 1) k) := by
  obtain ⟨-, -, -, -, -, -, -, -, e0, e1, -⟩ := blockIndex t
  rw [View.read_apply]
  refine congrArg (A : S1x128.Idx → EReal) (funext fun d => Fin.ext ?_)
  match d with
  | ⟨0, _⟩ => show win0_4.index t (0 : Fin 2) * 1 + 1 * 0 = 0; omega
  | ⟨1, _⟩ => show win0_4.index t (1 : Fin 2) * 128 + 1 * k.val = k.val; omega

/-- The block of the residual bias row is the row. -/
theorem resBias_apply (c : Dev nD) (A : Buf (Elt Ideal) ((c : Thread nD τ).loc main_v45)) (t : Fin cfg0.N) (k : Fin 128) :
    (((cfg0.win 5).blk t).view.read (Elt Ideal) A : Vec Ideal S1x128 .f32) (ix2 (0 : Fin 1) k) = (A : S1x128.Idx → EReal) (ix2 (0 : Fin 1) k) := by
  obtain ⟨-, -, -, -, -, -, -, -, -, -, e0, e1, -⟩ := blockIndex t
  rw [View.read_apply]
  refine congrArg (A : S1x128.Idx → EReal) (funext fun d => Fin.ext ?_)
  match d with
  | ⟨0, _⟩ => show win0_5.index t (0 : Fin 2) * 1 + 1 * 0 = 0; omega
  | ⟨1, _⟩ => show win0_5.index t (1 : Fin 2) * 128 + 1 * k.val = k.val; omega

/-- The block of the scale row is the row. -/
theorem scale_apply (c : Dev nD) (A : Buf (Elt Ideal) ((c : Thread nD τ).loc main_v46)) (t : Fin cfg0.N) (k : Fin 128) :
    (((cfg0.win 6).blk t).view.read (Elt Ideal) A : Vec Ideal S1x128 .f32) (ix2 (0 : Fin 1) k) = (A : S1x128.Idx → EReal) (ix2 (0 : Fin 1) k) := by
  obtain ⟨-, -, -, -, -, -, -, -, -, -, -, -, e0, e1, -⟩ := blockIndex t
  rw [View.read_apply]
  refine congrArg (A : S1x128.Idx → EReal) (funext fun d => Fin.ext ?_)
  match d with
  | ⟨0, _⟩ => show win0_6.index t (0 : Fin 2) * 1 + 1 * 0 = 0; omega
  | ⟨1, _⟩ => show win0_6.index t (1 : Fin 2) * 128 + 1 * k.val = k.val; omega

/-- The block of the shift row is the row. -/
theorem shift_row_apply (c : Dev nD) (A : Buf (Elt Ideal) ((c : Thread nD τ).loc main_v47)) (t : Fin cfg0.N) (k : Fin 128) :
    (((cfg0.win 7).blk t).view.read (Elt Ideal) A : Vec Ideal S1x128 .f32) (ix2 (0 : Fin 1) k) = (A : S1x128.Idx → EReal) (ix2 (0 : Fin 1) k) := by
  obtain ⟨-, -, -, -, -, -, -, -, -, -, -, -, -, -, e0, e1, -⟩ := blockIndex t
  rw [View.read_apply]
  refine congrArg (A : S1x128.Idx → EReal) (funext fun d => Fin.ext ?_)
  match d with
  | ⟨0, _⟩ => show win0_7.index t (0 : Fin 2) * 1 + 1 * 0 = 0; omega
  | ⟨1, _⟩ => show win0_7.index t (1 : Fin 2) * 128 + 1 * k.val = k.val; omega

/-! ## What a point writes back -/

/-- Window 8's blocks are never cut at the array's end: what is written back is the buffer, index by index. -/
theorem cut_apply {α : Type} (X : S5000x128.Idx → α) (t : Fin cfg0.N) (j : ((cfg0.win 8).xblock (grid0.coords t)).Idx) :
    (cfg0.win 8).cut (grid0.coords t) X j = X j := rfl

/-- A table read through point t's block of the result array, at a block index, is the table at the index the block
    places it at. -/
theorem read_out_apply (G : S50000x128.Idx → EReal) (t : Fin cfg0.N) (j : ((cfg0.win 8).xblock (grid0.coords t)).Idx) :
    ((cfg0.win 8).blk t).view.read (Elt Ideal) G j = G (((cfg0.win 8).blk t).view.emb j) := rfl

/-- The specification's table of the arrays the region finds. -/
abbrev table (c : Dev nD) : S50000x128.Idx → EReal :=
  Cert.Spec.denseOut (V m c main_v43) (V m c main_arg0) (V m c main_arg2) (V m c main_arg6) (V m c main_v44) (V m c main_v46)
    (V m c main_v47) (V m c main_v45)

/-- WHAT POINT t WRITES BACK is block t of the specification's table: the stored block's entry (p, q) is the table's entry
    (5000 t + p, q), because the two row-blocked inputs are read at rows 5000 t + p and the six others whole. -/
theorem flushed_eq (c : Dev nD) (t : Fin cfg0.N) :
    (dats m 0 c).flushed 8 t = ((cfg0.win 8).blk t).view.read (Elt Ideal) (table m c) := by
  rw [Cert.KernelIdeal.Value.flushed8]
  unfold out0_8
  rw [View.canon_unit_zero zeroOffsets]
  simp only [View.ld_unit_zero (S := S5000x64) zeroOffsets, View.ld_unit_zero (S := S64x128) zeroOffsets,
    View.ld_unit_zero (S := S1x128) zeroOffsets]
  obtain ⟨-, -, -, -, -, -, -, -, -, -, -, -, -, -, -, -, e0, e1⟩ := blockIndex t
  funext j
  have hj0 : (j 0).val < 5000 := (j 0).isLt
  have hr : ((((cfg0.win 8).blk t).view.emb j) 0).val = t.val * 5000 + (j 0).val := by
    show win0_8.index t (0 : Fin 2) * 5000 + 1 * (j 0).val = _; omega
  have hc : (((cfg0.win 8).blk t).view.emb j) 1 = j 1 := Fin.ext (by
    show win0_8.index t (1 : Fin 2) * 128 + 1 * (j 1).val = (j 1).val; omega)
  have h0 : ∀ k : Fin 64, (iblk m c 0 t : Vec Ideal S5000x64 .f32) (ix2 (j 0) k)
      = (V m c main_v43 : S50000x64.Idx → EReal) (ix2 ((((cfg0.win 8).blk t).view.emb j) 0) k) :=
    fun k => aggRows_apply c (V m c main_v43) t (j 0) k _ hr
  have h1 : ∀ k : Fin 64, (iblk m c 1 t : Vec Ideal S5000x64 .f32) (ix2 (j 0) k)
      = (V m c main_arg0 : S50000x64.Idx → EReal) (ix2 ((((cfg0.win 8).blk t).view.emb j) 0) k) :=
    fun k => nodeRows_apply c (V m c main_arg0) t (j 0) k _ hr
  have h2 : ∀ (a : Fin 64) (k : Fin 128), (iblk m c 2 t : Vec Ideal S64x128 .f32) (ix2 a k)
      = (V m c main_arg2 : S64x128.Idx → EReal) (ix2 a k) := fun a k => weight_apply c (V m c main_arg2) t a k
  have h3 : ∀ (a : Fin 64) (k : Fin 128), (iblk m c 3 t : Vec Ideal S64x128 .f32) (ix2 a k)
      = (V m c main_arg6 : S64x128.Idx → EReal) (ix2 a k) := fun a k => resWeight_apply c (V m c main_arg6) t a k
  have h4 : ∀ k : Fin 128, (iblk m c 4 t : Vec Ideal S1x128 .f32) (ix2 (0 : Fin 1) k)
      = (V m c main_v44 : S1x128.Idx → EReal) (ix2 (0 : Fin 1) k) := fun k => bias_apply c (V m c main_v44) t k
  have h5 : ∀ k : Fin 128, (iblk m c 5 t : Vec Ideal S1x128 .f32) (ix2 (0 : Fin 1) k)
      = (V m c main_v45 : S1x128.Idx → EReal) (ix2 (0 : Fin 1) k) := fun k => resBias_apply c (V m c main_v45) t k
  have h6 : ∀ k : Fin 128, (iblk m c 6 t : Vec Ideal S1x128 .f32) (ix2 (0 : Fin 1) k)
      = (V m c main_v46 : S1x128.Idx → EReal) (ix2 (0 : Fin 1) k) := fun k => scale_apply c (V m c main_v46) t k
  have h7 : ∀ k : Fin 128, (iblk m c 7 t : Vec Ideal S1x128 .f32) (ix2 (0 : Fin 1) k)
      = (V m c main_v47 : S1x128.Idx → EReal) (ix2 (0 : Fin 1) k) := fun k => shift_row_apply c (V m c main_v47) t k
  have key := blockOut_at (iblk m c 0 t) (iblk m c 1 t) (iblk m c 2 t) (iblk m c 3 t) (iblk m c 4 t) (iblk m c 5 t) (iblk m c 6 t)
    (iblk m c 7 t) (V m c main_v43) (V m c main_arg0) (V m c main_arg2) (V m c main_arg6) (V m c main_v44) (V m c main_v46)
    (V m c main_v47) (V m c main_v45) j (((cfg0.win 8).blk t).view.emb j) hc h0 h1 h2 h3 h4 h5 h6 h7
  exact (cut_apply _ t j).trans (key.trans (read_out_apply (table m c) t j).symm)

/-! ## The ten blocks tile the table -/

/-- An index of the result array is in point t's block iff each coordinate is in the block's range on its axis. -/
theorem mem_rowBlock (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v48).slice (win0_8.rect t)).set ↔ _
  rw [View.set_slice_whole, Rect.mem_set_unit]
  exact Iff.rfl

/-- Row r of the table is in the block of the point whose row block is r / 5000. -/
theorem covered (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := rowBlock_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_rowBlock]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-! ## The result array and the run -/

/-- THE RESULT ARRAY after the run is the specification's table of the arrays the region finds. -/
theorem final (c : Dev nD) :
    (dats m 0 c).arrAt 8 cfg0.N = Cert.Spec.denseOut (V m c main_v43) (V m c main_arg0) (V m c main_arg2) (V m c main_arg6)
      (V m c main_v44) (V m c main_v46) (V m c main_v47) (V m c main_v45) :=
  (dats m 0 c).arrAt_eq_of_cover 8 (table m c) (fun t _ => flushed_eq m c t) covered

/-- The run, read: the result array at the specification's table, the eight arguments unchanged. -/
theorem run : θ_run defs (onTc (τ := τ) (main (F := Ideal))) ⟨m, fun _ => 0, ρ⟩ fun r => ∀ c : Dev nD,
      r.2.mem ((c : Thread nD τ).loc main_v48) = Cert.Spec.denseOut (V m c main_v43) (V m c main_arg0) (V m c main_arg2)
        (V m c main_arg6) (V m c main_v44) (V m c main_v46) (V m c main_v47) (V m c main_v45)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KerDense

end
-- ==== Proof.KerAggDef.lean ====
/-
  The kernel program's aggregation stretch (the operations before its one launch), as staged functions of the argument
  arrays.

  A node's degree is one plus the number of given edges that arrive at it (`kerDeg`: ones added up at the
  destinations, plus one for the node's own loop), its factor the reciprocal square root of the degree (`kerFactor`).
  Every edge's message is the row of the node features at the edge's source times the factors of its two ends
  (`kerMsgs`); the messages are added up at the destinations, and every node adds its own features times the square of
  its factor (`kerSelf`): `kerAgg`, a table [50000, 64] that the launch multiplies by the weights. A row number that is
  negative is first moved up by the node count (`wrapE`) wherever it is used to look a row up; the sums at the
  destinations use the numbers as given. The four parameter vectors reach the launch as one-row tables (`kerRow`).
-/
import proofs.«177523_j83915071030244_2_alg».proof.Proof.Gen.KernelIdeal

noncomputable section

namespace Cert.KerAgg

open Cert.KernelIdeal Cert.KernelIdeal.Gen Idealize.ShloMosaic Idealize.SL.Sem

variable {F : FTy → Type} [FloatOps F]

/-- The given sources. -/
def kerSrc (x1 : (⟨S2x800000, .i32⟩ : BufTy).Contents (Elt F)) : (⟨S800000, .i32⟩ : BufTy).Contents (Elt F) :=
  shapeCast _ (extractStridedSlice S1x800000 ![0, 0] x1 slices_S2x800000_S1x800000_0_0) shapeCasts_S1x800000_S800000

/-- The given destinations. -/
def kerDst (x1 : (⟨S2x800000, .i32⟩ : BufTy).Contents (Elt F)) : (⟨S800000, .i32⟩ : BufTy).Contents (Elt F) :=
  shapeCast _ (extractStridedSlice S1x800000 ![1, 0] x1 slices_S2x800000_S1x800000_1_0) shapeCasts_S1x800000_S800000

/-- Negative row numbers moved up by the node count, the others kept. -/
def wrapE (v : (⟨S800000, .i32⟩ : BufTy).Contents (Elt F)) : (⟨S800000, .i32⟩ : BufTy).Contents (Elt F) :=
  select (cmpi .slt v (broadcastInDim S800000 ![] bcast_S_S800000 (constantI S_ 32 0#32)))
    (addi v (broadcastInDim S800000 ![] bcast_S_S800000 (constantI S_ 32 50000#32))) v

/-- A list of row numbers as a column. -/
def colE (v : (⟨S800000, .i32⟩ : BufTy).Contents (Elt F)) : (⟨S800000x1, .i32⟩ : BufTy).Contents (Elt F) :=
  broadcastInDim S800000x1 ![0] bcast_S800000_S800000x1_0 v

/-- The degrees: ones added up at the destinations, plus one. -/
def kerDeg (x1 : (⟨S2x800000, .i32⟩ : BufTy).Contents (Elt F)) : (⟨S50000, .f32⟩ : BufTy).Contents (Elt F) :=
  addf (Host.scatterAdd scatter_S50000_S800000x1_S800000_n_0_0_1
      (broadcastInDim S50000 ![] bcast_S_S50000 (constant (F := F) S_ .f32 0x00000000#32)) (colE (kerDst x1))
      (broadcastInDim S800000 ![] bcast_S_S800000 (constant (F := F) S_ .f32 0x3F800000#32)))
    (broadcastInDim S50000 ![] bcast_S_S50000 (constant (F := F) S_ .f32 0x3F800000#32))

/-- The factor of a node. -/
def kerFactor (x1 : (⟨S2x800000, .i32⟩ : BufTy).Contents (Elt F)) : (⟨S50000, .f32⟩ : BufTy).Contents (Elt F) :=
  Host.rsqrt (kerDeg x1)

/-- The weight of every edge: the factors of its two ends. -/
def kerEdgeW (x1 : (⟨S2x800000, .i32⟩ : BufTy).Contents (Elt F)) : (⟨S800000, .f32⟩ : BufTy).Contents (Elt F) :=
  mulf (Host.gather gather_S50000_S800000x1_S800000_n_0_n_n_0_1_1 (kerFactor x1) (colE (wrapE (kerSrc x1))))
    (Host.gather gather_S50000_S800000x1_S800000_n_0_n_n_0_1_1 (kerFactor x1) (colE (wrapE (kerDst x1))))

/-- Every edge's message. -/
def kerMsgs (x0 : (⟨S50000x64, .f32⟩ : BufTy).Contents (Elt F)) (x1 : (⟨S2x800000, .i32⟩ : BufTy).Contents (Elt F)) :
    (⟨S800000x64, .f32⟩ : BufTy).Contents (Elt F) :=
  mulf (Host.gather gather_S50000x64_S800000x1_S800000x64_1_0_n_n_0_1_164 x0 (colE (wrapE (kerSrc x1))))
    (broadcastInDim S800000x64 ![0, 1] bcast_S800000x1_S800000x64_0_1
      (broadcastInDim S800000x1 ![0] bcast_S800000_S800000x1_0 (kerEdgeW x1)))

/-- Every node's own features times the square of its factor. -/
def kerSelf (x0 : (⟨S50000x64, .f32⟩ : BufTy).Contents (Elt F)) (x1 : (⟨S2x800000, .i32⟩ : BufTy).Contents (Elt F)) :
    (⟨S50000x64, .f32⟩ : BufTy).Contents (Elt F) :=
  mulf (broadcastInDim S50000x64 ![0, 1] bcast_S50000x1_S50000x64_0_1
      (broadcastInDim S50000x1 ![0] bcast_S50000_S50000x1_0 (mulf (kerFactor x1) (kerFactor x1)))) x0

/-- The aggregated features the launch takes. -/
def kerAgg (x0 : (⟨S50000x64, .f32⟩ : BufTy).Contents (Elt F)) (x1 : (⟨S2x800000, .i32⟩ : BufTy).Contents (Elt F)) :
    (⟨S50000x64, .f32⟩ : BufTy).Contents (Elt F) :=
  addf (Host.scatterAdd scatter_S50000x64_S800000x1_S800000x64_1_0_0_1
      (broadcastInDim S50000x64 ![] bcast_S_S50000x64 (constant (F := F) S_ .f32 0x00000000#32)) (colE (kerDst x1)) (kerMsgs x0 x1))
    (kerSelf x0 x1)

/-- A parameter vector as a one-row table. -/
def kerRow (v : (⟨S128, .f32⟩ : BufTy).Contents (Elt F)) : (⟨S1x128, .f32⟩ : BufTy).Contents (Elt F) :=
  shapeCast _ v shapeCasts_S128_S1x128

end Cert.KerAgg

end
-- ==== Proof.KerHost.lean ====
/-
  What the launch finds in the arrays the operations before it wrote: the aggregated features are `kerAgg` of the node
  features and the edge table, and the four parameter vectors arrive as one-row tables.
-/
import proofs.«177523_j83915071030244_2_alg».proof.Proof.Gen.KernelIdeal.Frame
import proofs.«177523_j83915071030244_2_alg».proof.Proof.KerAggDef
import Idealize.ShloMosaic.Lib.StableHlo.Run

noncomputable section

namespace Cert.KerHost

open Cert.KernelIdeal Cert.KernelIdeal.Gen Cert.KerAgg Idealize.ShloMosaic Idealize.ShloMosaic.TcCoe Idealize.SL.Sem
  Idealize.ShloMosaic.StableHlo

variable {F : FTy → Type} [FloatOps F]
variable (m : (ℓ : Loc nD τ sig) → Buf (Elt F) ℓ)

set_option maxHeartbeats 2000000

/-- The aggregated features the launch stages. -/
theorem V_agg (c : Dev nD) :
    (V m c main_v43 : (⟨S50000x64, .f32⟩ : BufTy).Contents (Elt F))
      = kerAgg (F := F) (m ((c : Thread nD τ).loc main_arg0)) (m ((c : Thread nD τ).loc main_arg1)) := by
  show StableHlo.after (hostOps0 (F := F)) (fun b => m (c, b)) _ = _
  simp only [Gen.hostOps0]
  after_results_simp
  rfl

/-- The bias as a one-row table. -/
theorem V_b (c : Dev nD) :
    (V m c main_v44 : (⟨S1x128, .f32⟩ : BufTy).Contents (Elt F)) = kerRow (F := F) (m ((c : Thread nD τ).loc main_arg3)) := by
  show StableHlo.after (hostOps0 (F := F)) (fun b => m (c, b)) _ = _
  simp only [Gen.hostOps0]
  after_results_simp
  rfl

/-- The residual bias as a one-row table. -/
theorem V_rb (c : Dev nD) :
    (V m c main_v45 : (⟨S1x128, .f32⟩ : BufTy).Contents (Elt F)) = kerRow (F := F) (m ((c : Thread nD τ).loc main_arg7)) := by
  show StableHlo.after (hostOps0 (F := F)) (fun b => m (c, b)) _ = _
  simp only [Gen.hostOps0]
  after_results_simp
  rfl

/-- The normalisation's scale as a one-row table. -/
theorem V_w (c : Dev nD) :
    (V m c main_v46 : (⟨S1x128, .f32⟩ : BufTy).Contents (Elt F)) = kerRow (F := F) (m ((c : Thread nD τ).loc main_arg4)) := by
  show StableHlo.after (hostOps0 (F := F)) (fun b => m (c, b)) _ = _
  simp only [Gen.hostOps0]
  after_results_simp
  rfl

/-- The normalisation's shift as a one-row table. -/
theorem V_β (c : Dev nD) :
    (V m c main_v47 : (⟨S1x128, .f32⟩ : BufTy).Contents (Elt F)) = kerRow (F := F) (m ((c : Thread nD τ).loc main_arg5)) := by
  show StableHlo.after (hostOps0 (F := F)) (fun b => m (c, b)) _ = _
  simp only [Gen.hostOps0]
  after_results_simp
  rfl

end Cert.KerHost

end
-- ==== Proof.LibSegmentSum.lean ====
/-
  The host's accumulating scatter, read at an index given by coordinates, at the ideal values, for the dimension
  numbers of a SEGMENT SUM: the scatter indices are a column of N row numbers (shape [N, 1], the index vector along
  the second axis), update row i is added into operand row idx[i] (the scatter axis goes to operand axis 0, which is
  the one inserted window axis), and the update's remaining axis, if any, runs along the operand's columns. An element
  of the result is then the operand's element plus the sum of the update elements in the same column whose row number
  is that element's row: a sum over a filter of Fin N. A row number read signed that is negative or not below the
  operand's row count lands outside and adds nothing, which the filter says by itself, the wanted row being a row.
-/
import Idealize.ShloMosaic.Lib.ValueIdx
import Idealize.ShloMosaic.PureOps.Ideal.Laws

noncomputable section

namespace Cert.SegmentSum

open Idealize.ShloMosaic Idealize.ShloMosaic.ValueIdx
open scoped BigOperators

/-! ## Updates of rows: operand [S, C], updates [N, C] -/

/-- Update element (i, b) lands on operand element (s, c) exactly when row number i, read signed, is s and b = c:
    the start is (row number, 0) and the window coordinate is (0, b), so the landing place is (row number, b), inside
    the operand exactly when the row number is one of its rows. -/
theorem resultIdx?_rows_eq_some_iff {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (idx : IVec ⟨2, ![N, 1]⟩ w) (i : Fin N) (b : Fin C) (s : Fin S) (c : Fin C) :
    d.resultIdx? (ix2 i b) idx = some (ix2 s c) ↔ (idx (ix2 i (0 : Fin 1))).toInt = (s.val : Int) ∧ b = c := by
  unfold ScatterDims.resultIdx?
  constructor
  · intro h
    split_ifs at h with hr
    have h' := Option.some.inj h
    have h0 : (d.start (ix2 i b) idx (0 : Fin 2) + (d.window (ix2 i b) (0 : Fin 2) : Int)).toNat = s.val :=
      congrArg (fun f : (⟨2, ![S, C]⟩ : Shape).Idx => (f (0 : Fin 2)).val) h'
    have h1 : (d.start (ix2 i b) idx (1 : Fin 2) + (d.window (ix2 i b) (1 : Fin 2) : Int)).toNat = c.val :=
      congrArg (fun f : (⟨2, ![S, C]⟩ : Shape).Idx => (f (1 : Fin 2)).val) h'
    have hr0 := (hr (0 : Fin 2)).1
    rw [hs0, hw0] at h0 hr0
    rw [hs1, hw1] at h1
    refine ⟨by omega, Fin.ext (by omega)⟩
  · rintro ⟨hrow, rfl⟩
    have hr : ∀ a : Fin 2, 0 ≤ d.start (ix2 i b) idx a + (d.window (ix2 i b) a : Int) ∧
        d.start (ix2 i b) idx a + (d.window (ix2 i b) a : Int) < ((⟨2, ![S, C]⟩ : Shape).size a : Int) := by
      intro a
      match a with
      | ⟨0, _⟩ =>
        have e1 := hs0 i b idx
        have e2 := hw0 i b
        have hS : (s.val : Int) < (S : Int) := by exact_mod_cast s.isLt
        show 0 ≤ d.start (ix2 i b) idx (0 : Fin 2) + (d.window (ix2 i b) (0 : Fin 2) : Int) ∧
          d.start (ix2 i b) idx (0 : Fin 2) + (d.window (ix2 i b) (0 : Fin 2) : Int) < (S : Int)
        rw [e1, e2]; omega
      | ⟨1, _⟩ =>
        have e1 := hs1 i b idx
        have e2 := hw1 i b
        have hC : (b.val : Int) < (C : Int) := by exact_mod_cast b.isLt
        show 0 ≤ d.start (ix2 i b) idx (1 : Fin 2) + (d.window (ix2 i b) (1 : Fin 2) : Int) ∧
          d.start (ix2 i b) idx (1 : Fin 2) + (d.window (ix2 i b) (1 : Fin 2) : Int) < (C : Int)
        rw [e1, e2]; omega
    rw [dif_pos hr]
    congr 1
    funext a
    apply Fin.ext
    match a with
    | ⟨0, _⟩ =>
      show (d.start (ix2 i b) idx (0 : Fin 2) + (d.window (ix2 i b) (0 : Fin 2) : Int)).toNat = s.val
      rw [hs0, hw0]; omega
    | ⟨1, _⟩ =>
      show (d.start (ix2 i b) idx (1 : Fin 2) + (d.window (ix2 i b) (1 : Fin 2) : Int)).toNat = b.val
      rw [hs1, hw1]; omega

/-- The accumulating scatter of N update rows into an operand of S rows, at row s and column c: the operand's element
    plus the sum, over the update rows i whose row number (read signed) is s, of the update at (i, c). The hypotheses say
    what the dimension numbers mean: the start is (row number, 0), the window coordinate is (0, update column). The sum
    over the update indices that land on (s, c) is split by coordinates; the column must be c and the row's number s. -/
theorem scatterAdd_rows_apply {S C N w : ℕ} (d : ScatterDims ⟨2, ![S, C]⟩ ⟨2, ![N, 1]⟩ ⟨2, ![N, C]⟩)
    (hs0 : ∀ (i : Fin N) (b : Fin C) (idx : IVec ⟨2, ![N, 1]⟩ w),
      d.start (ix2 i b) idx (0 : Fin 2) = (idx (ix2 i (0 : Fin 1))).toInt)
    (hs1 : ∀ (i : Fin N) (b : Fin C) (idx : IVec ⟨2, ![N, 1]⟩ w), d.start (ix2 i b) idx (1 : Fin 2) = 0)
    (hw0 : ∀ (i : Fin N) (b : Fin C), d.window (ix2 i b) (0 : Fin 2) = 0)
    (hw1 : ∀ (i : Fin N) (b : Fin C), d.window (ix2 i b) (1 : Fin 2) = b.val)
    (x : FVec Ideal ⟨2, ![S, C]⟩ .f32) (idx : IVec ⟨2, ![N, 1]⟩ w) (upd : FVec Ideal ⟨2, ![N, C]⟩ .f32)
    (s : Fin S) (c : Fin C) :
    Host.scatterAdd d x idx upd (ix2 s c) = x (ix2 s c) +
      ∑ i ∈ Finset.univ.filter (fun i : Fin N => (idx (ix2 i (0 : Fin 1))).toInt = (s.val : Int)), upd (ix2 i c) := by
  show x (ix2 s c) + ∑ j ∈ Finset.univ.filter (fun j => d.resultIdx? j idx = some (ix2 s c)), upd j = _
  congr 1
  rw [Finset.sum_filter, Finset.sum_filter, sum_idx2]
  refine Finset.sum_congr rfl fun i _ => ?_
  simp only [resultIdx?_rows_eq_some_iff d hs0 hs1 hw0 hw1]
  by_cases h : (idx (ix2 i (0 : Fin 1))).toInt = (s.val : Int)
  · simp only [h, true_and, if_true]
    rw [Finset.sum_ite_eq' Finset.univ c (fun b => upd (ix2 i b))]
    simp
  · simp only [h, false_and, if_false, Finset.sum_const_zero]

/-! ## Updates of single elements: operand [S], updates [N] -/

/-- A rank-1 index set is its one coordinate range … -/
def idxEquiv1 {n : ℕ} : (⟨1, ![n]⟩ : Shape).Idx ≃ Fin n where
  toFun j := j 0
  invFun i := ix1 i
  left_inv j := (eq_ix1 j).symm
  right_inv _ := rfl

/-- … so a sum over it is the sum over the coordinate. -/
theorem sum_idx1 {M : Type*} [AddCommMonoid M] {n : ℕ} (f : (⟨1, ![n]⟩ : Shape).Idx → M) :
    ∑ j, f j = ∑ i : Fin n, f (ix1 i) := by
  rw [← Equiv.sum_comp (idxEquiv1 (n := n)).symm f]
  rfl

/-- Update element i lands on operand element s exactly when row number i, read signed, is s: the start is the row
    number and there is no window, so the landing place is the row number, inside the operand exactly when it is one of
    its elements. -/
theorem resultIdx?_vec_eq_some_iff {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (idx : IVec ⟨2, ![N, 1]⟩ w) (i : Fin N) (s : Fin S) :
    d.resultIdx? (ix1 i) idx = some (ix1 s) ↔ (idx (ix2 i (0 : Fin 1))).toInt = (s.val : Int) := by
  unfold ScatterDims.resultIdx?
  constructor
  · intro h
    split_ifs at h with hr
    have h' := Option.some.inj h
    have h0 : (d.start (ix1 i) idx (0 : Fin 1) + (d.window (ix1 i) (0 : Fin 1) : Int)).toNat = s.val :=
      congrArg (fun f : (⟨1, ![S]⟩ : Shape).Idx => (f (0 : Fin 1)).val) h'
    have hr0 := (hr (0 : Fin 1)).1
    rw [hs0, hw0] at h0 hr0
    omega
  · intro hrow
    have hr : ∀ a : Fin 1, 0 ≤ d.start (ix1 i) idx a + (d.window (ix1 i) a : Int) ∧
        d.start (ix1 i) idx a + (d.window (ix1 i) a : Int) < ((⟨1, ![S]⟩ : Shape).size a : Int) := by
      intro a
      match a with
      | ⟨0, _⟩ =>
        have e1 := hs0 i idx
        have e2 := hw0 i
        have hS : (s.val : Int) < (S : Int) := by exact_mod_cast s.isLt
        show 0 ≤ d.start (ix1 i) idx (0 : Fin 1) + (d.window (ix1 i) (0 : Fin 1) : Int) ∧
          d.start (ix1 i) idx (0 : Fin 1) + (d.window (ix1 i) (0 : Fin 1) : Int) < (S : Int)
        rw [e1, e2]; omega
    rw [dif_pos hr]
    congr 1
    funext a
    apply Fin.ext
    match a with
    | ⟨0, _⟩ =>
      show (d.start (ix1 i) idx (0 : Fin 1) + (d.window (ix1 i) (0 : Fin 1) : Int)).toNat = s.val
      rw [hs0, hw0]; omega

/-- The accumulating scatter of N update elements into an operand of S elements, at element s: the operand's element
    plus the sum, over the update elements i whose row number (read signed) is s, of the update at i. The hypotheses say
    what the dimension numbers mean: the start is the row number, and there is no window. -/
theorem scatterAdd_vec_apply {S N w : ℕ} (d : ScatterDims ⟨1, ![S]⟩ ⟨2, ![N, 1]⟩ ⟨1, ![N]⟩)
    (hs0 : ∀ (i : Fin N) (idx : IVec ⟨2, ![N, 1]⟩ w),
      d.start (ix1 i) idx (0 : Fin 1) = (idx (ix2 i (0 : Fin 1))).toInt)
    (hw0 : ∀ (i : Fin N), d.window (ix1 i) (0 : Fin 1) = 0)
    (x : FVec Ideal ⟨1, ![S]⟩ .f32) (idx : IVec ⟨2, ![N, 1]⟩ w) (upd : FVec Ideal ⟨1, ![N]⟩ .f32) (s : Fin S) :
    Host.scatterAdd d x idx upd (ix1 s) = x (ix1 s) +
      ∑ i ∈ Finset.univ.filter (fun i : Fin N => (idx (ix2 i (0 : Fin 1))).toInt = (s.val : Int)), upd (ix1 i) := by
  show x (ix1 s) + ∑ j ∈ Finset.univ.filter (fun j => d.resultIdx? j idx = some (ix1 s)), upd j = _
  congr 1
  rw [Finset.sum_filter, Finset.sum_filter, sum_idx1]
  refine Finset.sum_congr rfl fun i _ => ?_
  simp only [resultIdx?_vec_eq_some_iff d hs0 hw0]

end Cert.SegmentSum
-- ==== Proof.LibSegmentDims.lean ====
/-
  The dimension numbers of a segment sum, and what they mean: scatter indices [N, 1] with the index vector along the
  second axis, the one index component addressing operand axis 0, which is also the one inserted window axis; for a
  matrix of updates [N, C] the update's second axis is its window axis and runs along the operand's columns, for a
  vector of updates [N] there is no window. So update element (i, b) starts at (row number i, 0) with window coordinate
  (0, b), and update element i of a vector starts at row number i with no window.
-/
import Idealize.ShloMosaic.Lib.ValueIdx

noncomputable section

namespace Cert.SegmentDims

open Idealize.ShloMosaic Idealize.ShloMosaic.ValueIdx

/-! ## Rows: operand [S, C], indices [N, 1], updates [N, C] -/

abbrev rowsDims (S C N : Nat)
    (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

variable {S C N w : Nat}

theorem rows_start0 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (0 : Fin 2) = (idx (ix2 i (0 : Fin 1))).toInt := by
  unfold ScatterDims.start
  rw [dif_pos (show (0 : Fin 2) ∈ (rowsDims S C N wf).scatterDimsToOperandDims from List.mem_singleton.mpr rfl)]
  have hsi : (rowsDims S C N wf).siIdx (ix2 i b) ⟨List.idxOf (0 : Fin 2) (rowsDims S C N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem rows_start1 (wf : ScatterDims.WF ⟨2, ![S, C]⟩ ⟨2, ![N, 1]⟩ ⟨2, ![N, C]⟩ [1] [0] [0] 1)
    (i : Fin N) (b : Fin C) (idx : IVec ⟨2, ![N, 1]⟩ w) :
    (rowsDims S C N wf).start (ix2 i b) idx (1 : Fin 2) = 0 := by
  unfold ScatterDims.start
  rw [dif_neg (show (1 : Fin 2) ∉ (rowsDims S C N wf).scatterDimsToOperandDims from
    fun h => absurd (show (1 : Nat) = 0 from congrArg Fin.val (List.mem_singleton.mp h)) (by decide))]

theorem rows_window0 (wf : ScatterDims.WF ⟨2, ![S, C]⟩ ⟨2, ![N, 1]⟩ ⟨2, ![N, C]⟩ [1] [0] [0] 1)
    (i : Fin N) (b : Fin C) : (rowsDims S C N wf).window (ix2 i b) (0 : Fin 2) = 0 := by
  unfold ScatterDims.window
  rw [dif_neg]
  intro h
  have : (0 : Fin 2) ∉ (rowsDims S C N wf).insertedWindowDims := by
    simpa [ScatterDims.sKept, Shape.kept, List.mem_filter] using h
  exact this (List.mem_singleton.mpr rfl)

theorem rows_window1 (wf : ScatterDims.WF ⟨2, ![S, C]⟩ ⟨2, ![N, 1]⟩ ⟨2, ![N, C]⟩ [1] [0] [0] 1)
    (i : Fin N) (b : Fin C) : (rowsDims S C N wf).window (ix2 i b) (1 : Fin 2) = b.val := by
  unfold ScatterDims.window
  have h1 : (1 : Fin 2) ∈ (rowsDims S C N wf).sKept := by
    simp [ScatterDims.sKept, Shape.kept, List.mem_filter, List.mem_finRange]
  rw [dif_pos h1]
  rfl

/-! ## Elements: operand [S], indices [N, 1], updates [N] -/

abbrev vecDims (S N : Nat) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

theorem vec_start0 (wf : ScatterDims.WF ⟨1, ![S]⟩ ⟨2, ![N, 1]⟩ ⟨1, ![N]⟩ [] [0] [0] 1)
    (i : Fin N) (idx : IVec ⟨2, ![N, 1]⟩ w) :
    (vecDims S N wf).start (ix1 i) idx (0 : Fin 1) = (idx (ix2 i (0 : Fin 1))).toInt := by
  unfold ScatterDims.start
  rw [dif_pos (show (0 : Fin 1) ∈ (vecDims S N wf).scatterDimsToOperandDims from List.mem_singleton.mpr rfl)]
  have hsi : (vecDims S N wf).siIdx (ix1 i) ⟨List.idxOf (0 : Fin 1) (vecDims S N wf).scatterDimsToOperandDims,
      List.idxOf_lt_length_iff.2 (List.mem_singleton.mpr rfl)⟩ = ix2 i (0 : Fin 1) := by
    funext a; refine Fin.ext ?_
    match a with
    | ⟨0, _⟩ => rfl
    | ⟨1, _⟩ => rfl
  rw [hsi]

theorem vec_window0 (wf : ScatterDims.WF ⟨1, ![S]⟩ ⟨2, ![N, 1]⟩ ⟨1, ![N]⟩ [] [0] [0] 1) (i : Fin N) :
    (vecDims S N wf).window (ix1 i) (0 : Fin 1) = 0 := by
  unfold ScatterDims.window
  rw [dif_neg]
  intro h
  have : (0 : Fin 1) ∉ (vecDims S N wf).insertedWindowDims := by
    simpa [ScatterDims.sKept, Shape.kept, List.mem_filter] using h
  exact this (List.mem_singleton.mpr rfl)

end Cert.SegmentDims
-- ==== Proof.LibGatherRows.lean ====
/-
  The host's gather of whole rows, read at an index given by coordinates: what `x[idx]` lowers to for a matrix
  `x : [N, C]` (or a vector `x : [N]`) and a column of M row numbers `idx : [M, 1]` (the index vector along the
  second axis). Row e of the result is row `idx[e, 0]` of the operand, the row number read as a signed integer and
  clamped into `[0, N − 1]` — a gather clamps every start index so that the slice fits, and the slice is one row.
  The clamped row depends on the row number's word alone (`clampRow`), so a matrix and a vector gathered at the same
  column of row numbers are read at the same rows.
-/
import Idealize.ShloMosaic.Lib.ValueIdx

noncomputable section

namespace Cert.GatherRows

open Idealize.ShloMosaic Idealize.ShloMosaic.ValueIdx

/-- A row number's word read signed and clamped into the rows `[0, N − 1]` of an operand with `N > 0` rows. -/
def clampRow (N : Nat) (hN : 0 < N) {w : Nat} (v : BitVec w) : Fin N := ⟨min v.toInt.toNat (N - 1), by omega⟩

/-- A word whose signed value is the row `n` clamps to `n`. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  have := n.isLt
  rw [h]; omega

variable {α : Type}

/-! ## Rows of a matrix: operand [N, C], row numbers [M, 1], result [M, C] -/

/-- The dimension numbers of `x[idx]` for a matrix: the result's second axis is the slice's (offset axis 1), operand
    axis 0 is collapsed and is the one the start index addresses, the slice is one whole row. Their conditions `wf`
    are decided on a program's literal shapes. -/
abbrev rowDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]` (signed, clamped) and column `c`. -/
theorem gather_rows_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (rowDims N C M wf) x idx (ix2 e c) = x (ix2 (clampRow N hN (idx (ix2 e (0 : Fin 1)))) c) := by
  have h0 : (rowDims N C M wf).start (ix2 e c) idx (0 : Fin 2) + (rowDims N C M wf).batchCoord (ix2 e c) (0 : Fin 2)
      + (rowDims N C M wf).offCoord (ix2 e c) (0 : Fin 2) = (clampRow N hN (idx (ix2 e (0 : Fin 1)))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C M wf).startIndexMap from List.mem_singleton.mpr rfl)]
    have hsi : (rowDims N C M wf).siIdx (ix2 e c) ⟨List.idxOf (0 : Fin 2) (rowDims N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (rowDims N C M wf).start (ix2 e c) idx (1 : Fin 2) + (rowDims N C M wf).batchCoord (ix2 e c) (1 : Fin 2)
      + (rowDims N C M wf).offCoord (ix2 e c) (1 : Fin 2) = c.val := by
    rw [GatherDims.batchCoord_eq_zero _ _ _ List.not_mem_nil]
    simp only [Nat.add_zero]
    unfold GatherDims.start
    rw [dif_neg (show (1 : Fin 2) ∉ (rowDims N C M wf).startIndexMap from
      fun h => absurd (show (1 : Nat) = 0 from congrArg Fin.val (List.mem_singleton.mp h)) (by decide)), Nat.zero_add]
    rfl
  unfold Host.gather
  congr 1
  funext a
  refine Fin.ext ?_
  match a with
  | ⟨0, _⟩ => exact h0
  | ⟨1, _⟩ => exact h1

/-! ## Elements of a vector: operand [N], row numbers [M, 1], result [M] -/

/-- The dimension numbers of `x[idx]` for a vector: no offset axis, the operand's one axis collapsed and addressed by
    the start index, the slice one element. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at element `idx[e, 0]` (signed, clamped) — the same row the matrix
    gather reads. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN (idx (ix2 e (0 : Fin 1))))) := by
  unfold Host.gather
  congr 1
  funext a
  obtain rfl : a = 0 := Subsingleton.elim _ _
  refine Fin.ext ?_
  show (vecDims N M wf).start (ix1 e) idx 0 + (vecDims N M wf).batchCoord (ix1 e) 0
    + (vecDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N M wf).startIndexMap from List.mem_singleton.mpr rfl)]
  have hsi : (vecDims N M wf).siIdx (ix1 e) ⟨List.idxOf (0 : Fin 1) (vecDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.GatherRows
-- ==== Proof.LibNonnegDistrib.lean ====
/-
  Multiplication by a nonnegative finite extended real distributes over every finite sum of extended reals, whatever
  the summands are: on the extended reals a product distributes over a sum as soon as the factor is nonnegative and is
  not +∞ (the one sum that is not a sum of reals, +∞ + −∞ = −∞, is kept by such a factor: a positive one keeps both
  infinities, and zero sends every term and the sum to zero). Nothing is asked of the summands, so no finiteness of the
  arrays that supply them is needed.

  From it, the row law of a degree-normalised neighbourhood sum: scaling the neighbours before they are added up and
  the total afterwards, or scaling each neighbour by both factors before adding, give the same row.
-/
import Idealize.ShloMosaic.PureOps.Ideal.Laws

noncomputable section

namespace Cert.NonnegDistrib

open scoped BigOperators

/-- A nonnegative factor that is not +∞ goes inside a finite sum of arbitrary extended reals. -/
theorem mul_sum {ι : Type*} (t : Finset ι) (a : EReal) (ha : 0 ≤ a) (ha' : a ≠ ⊤) (f : ι → EReal) :
    a * ∑ i ∈ t, f i = ∑ i ∈ t, a * f i := by
  classical
  refine Finset.induction_on t ?_ ?_
  · simp
  · intro i t hi ih
    rw [Finset.sum_insert hi, Finset.sum_insert hi, EReal.left_distrib_of_nonneg_of_ne_top ha ha', ih]

/-- THE ROW LAW. For one row with normalising factor `σ` (nonnegative, not +∞), neighbours `e ∈ t` contributing the
    value `g e` with the neighbour's own factor `k e`, and the row's own value `v`:
    `σ · ((0 + Σ g e · k e) + v · σ) = (0 + Σ g e · (k e · σ)) + v · (σ · σ)`. -/
theorem row_law {ι : Type*} (t : Finset ι) (σ : EReal) (hσ : 0 ≤ σ) (hσ' : σ ≠ ⊤) (g k : ι → EReal) (v : EReal) :
    σ * ((0 + ∑ e ∈ t, g e * k e) + v * σ) = (0 + ∑ e ∈ t, g e * (k e * σ)) + v * (σ * σ) := by
  rw [EReal.left_distrib_of_nonneg_of_ne_top hσ hσ', zero_add, zero_add, mul_sum t σ hσ hσ']
  congr 1
  · refine Finset.sum_congr rfl fun e _ => ?_
    rw [mul_left_comm, mul_comm σ (k e)]
  · rw [mul_left_comm]

end Cert.NonnegDistrib
-- ==== Proof.LibEdgeLayer.lean ====
/-
  One layer of a degree-normalised graph convolution whose self loops are ordinary edges, generic in the number of
  nodes N, of channels C and of edges E. H : [N, C] is the dense product, s : [N] a factor per node (S : [N, 1] the
  same factor kept as a column), and Sx, Dx, D : [E, 1] are columns of row numbers: the source rows, the destination
  rows as the second factor's gather reads them, and the destination rows as the accumulating scatter reads them.

  Two ways to compute the layer are shown to give the same element at every node n and channel c.
  * Scale first, scale last: every row of H is multiplied by its own node's factor, the rows at Sx are gathered and
    added up at D, the total at node n is multiplied by the factor of n, and the bias row B : [1, C] is added.
  * Scale each edge: the rows of H at Sx are gathered, edge i is multiplied by the product of the factor gathered at
    Sx and the factor gathered at Dx, the edges are added up at D, and the bias b : [C] is added.
  An edge that lands at node n (its D number read signed is n) reads node n through Dx, so in the sum of the edges that
  land at n the second factor is s n throughout; and s n moves across that sum because it is nonnegative and not +∞
  (multiplication by such a factor distributes over any finite sum of extended reals), whatever the elements of H are:
  (Σ g·k)·σ = σ·Σ g·k = Σ σ·(g·k) = Σ g·(k·σ).
-/
import proofs.«177523_j83915071030244_2_alg».proof.Proof.LibSegmentSum
import proofs.«177523_j83915071030244_2_alg».proof.Proof.LibSegmentDims
import proofs.«177523_j83915071030244_2_alg».proof.Proof.LibGatherRows
import proofs.«177523_j83915071030244_2_alg».proof.Proof.LibDenseRows
import proofs.«177523_j83915071030244_2_alg».proof.Proof.LibNonnegDistrib

noncomputable section

namespace Cert.EdgeLayer

open Idealize.ShloMosaic Idealize.ShloMosaic.ValueIdx
open scoped BigOperators

/-- SCALE FIRST. The accumulating scatter, into a zero operand, of the rows of `H` scaled by their own node's factor and
    gathered at `Sx`, read at `(n, c)`: the sum over the edges `i` that land at node `n` of row `Sx[i]` (signed, clamped)
    of `H` at column `c` times that row's factor. -/
theorem scaled_first_apply {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (H : FVec Ideal ⟨2, ![N, C]⟩ .f32) (s : FVec Ideal ⟨1, ![N]⟩ .f32) (S : FVec Ideal ⟨2, ![N, 1]⟩ .f32)
    (Sx D : IVec ⟨2, ![E, 1]⟩ 32) (z : FVec Ideal ⟨2, ![N, C]⟩ .f32)
    (hS : ∀ n : Fin N, S (ix2 n (0 : Fin 1)) = s (ix1 n)) (hz : ∀ j, z j = 0) (n : Fin N) (c : Fin C) :
    Host.scatterAdd (Cert.SegmentDims.rowsDims N C E wfs) z D
        (Host.gather (Cert.GatherRows.rowDims N C E wg2) (fun j => H j * S (ix2 (j 0 : Fin N) (0 : Fin 1))) Sx) (ix2 n c)
      = 0 + ∑ i ∈ Finset.univ.filter (fun i : Fin E => (D (ix2 i (0 : Fin 1))).toInt = (n.val : Int)),
          H (ix2 (Cert.GatherRows.clampRow N hN (Sx (ix2 i (0 : Fin 1)))) c)
            * s (ix1 (Cert.GatherRows.clampRow N hN (Sx (ix2 i (0 : Fin 1))))) := by
  refine (Cert.SegmentSum.scatterAdd_rows_apply (Cert.SegmentDims.rowsDims N C E wfs)
    (fun i b idx => Cert.SegmentDims.rows_start0 wfs i b idx) (fun i b idx => Cert.SegmentDims.rows_start1 wfs i b idx)
    (Cert.SegmentDims.rows_window0 wfs) (Cert.SegmentDims.rows_window1 wfs) z D _ n c).trans ?_
  rw [hz]
  refine congrArg (fun t : EReal => 0 + t) (Finset.sum_congr rfl fun i _ => ?_)
  rw [Cert.GatherRows.gather_rows_apply hN wg2 _ Sx i c]
  exact congrArg (fun t : EReal => H (ix2 (Cert.GatherRows.clampRow N hN (Sx (ix2 i (0 : Fin 1)))) c) * t) (hS _)

/-- SCALE EACH EDGE. The accumulating scatter, into a zero operand, of the rows of `H` gathered at `Sx`, each times the
    product of the factor gathered at `Sx` and the factor gathered at `Dx` (laid along the row), read at `(n, c)`: the sum
    over the edges `i` that land at node `n` of row `Sx[i]` of `H` at column `c` times the two gathered factors. -/
theorem scaled_each_apply {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (H : FVec Ideal ⟨2, ![N, C]⟩ .f32) (s : FVec Ideal ⟨1, ![N]⟩ .f32)
    (Sx Dx D : IVec ⟨2, ![E, 1]⟩ 32) (z : FVec Ideal ⟨2, ![N, C]⟩ .f32) (hz : ∀ j, z j = 0) (n : Fin N) (c : Fin C) :
    Host.scatterAdd (Cert.SegmentDims.rowsDims N C E wfs) z D
        (mulf (Host.gather (Cert.GatherRows.rowDims N C E wg2) H Sx)
          (broadcastInDim ⟨2, ![E, C]⟩ ![0, 1] hEC (broadcastInDim ⟨2, ![E, 1]⟩ ![0] hE1
            (mulf (Host.gather (Cert.GatherRows.vecDims N E wg1) s Sx) (Host.gather (Cert.GatherRows.vecDims N E wg1) s Dx)))))
        (ix2 n c)
      = 0 + ∑ i ∈ Finset.univ.filter (fun i : Fin E => (D (ix2 i (0 : Fin 1))).toInt = (n.val : Int)),
          H (ix2 (Cert.GatherRows.clampRow N hN (Sx (ix2 i (0 : Fin 1)))) c)
            * (s (ix1 (Cert.GatherRows.clampRow N hN (Sx (ix2 i (0 : Fin 1)))))
                * s (ix1 (Cert.GatherRows.clampRow N hN (Dx (ix2 i (0 : Fin 1)))))) := by
  refine (Cert.SegmentSum.scatterAdd_rows_apply (Cert.SegmentDims.rowsDims N C E wfs)
    (fun i b idx => Cert.SegmentDims.rows_start0 wfs i b idx) (fun i b idx => Cert.SegmentDims.rows_start1 wfs i b idx)
    (Cert.SegmentDims.rows_window0 wfs) (Cert.SegmentDims.rows_window1 wfs) z D _ n c).trans ?_
  rw [hz]
  refine congrArg (fun t : EReal => 0 + t) (Finset.sum_congr rfl fun i _ => ?_)
  rw [mulf_apply, Cert.GatherRows.gather_rows_apply hN wg2 H Sx i c,
    Cert.DenseRows.broadcastInDim_a1_ab_apply _ hEC i c, Cert.DenseRows.broadcastInDim_a_a1_apply _ hE1 i (0 : Fin 1),
    mulf_apply, Cert.GatherRows.gather_vec_apply hN wg1 s Sx i, Cert.GatherRows.gather_vec_apply hN wg1 s Dx i]

/-- THE LAYER LAW: scaling first and last, or scaling each edge by both factors, give the same element. -/
theorem layer_law {N C E : ℕ} (hN : 0 < N)
    (wfs : ScatterDims.WF ⟨2, ![N, C]⟩ ⟨2, ![E, 1]⟩ ⟨2, ![E, C]⟩ [1] [0] [0] 1)
    (wg2 : GatherDims.WF ⟨2, ![N, C]⟩ ⟨2, ![E, 1]⟩ ⟨2, ![E, C]⟩ [1] [0] [] [0] [] 1 ![1, C])
    (wg1 : GatherDims.WF ⟨1, ![N]⟩ ⟨2, ![E, 1]⟩ ⟨1, ![E]⟩ [] [0] [] [0] [] 1 ![1])
    (hE1 : (⟨1, ![E]⟩ : Shape).BroadcastsInDim ⟨2, ![E, 1]⟩ ![0])
    (hEC : (⟨2, ![E, 1]⟩ : Shape).BroadcastsInDim ⟨2, ![E, C]⟩ ![0, 1])
    (hC1 : (⟨1, ![C]⟩ : Shape).BroadcastsInDim ⟨2, ![1, C]⟩ ![1])
    (h1C : (⟨2, ![1, C]⟩ : Shape).BroadcastsInDim ⟨2, ![N, C]⟩ ![0, 1])
    (H : FVec Ideal ⟨2, ![N, C]⟩ .f32) (s : FVec Ideal ⟨1, ![N]⟩ .f32) (S : FVec Ideal ⟨2, ![N, 1]⟩ .f32)
    (Sx Dx D : IVec ⟨2, ![E, 1]⟩ 32)
    (z : FVec Ideal ⟨2, ![N, C]⟩ .f32) (b : FVec Ideal ⟨1, ![C]⟩ .f32) (B : FVec Ideal ⟨2, ![1, C]⟩ .f32)
    (hgood : ∀ n : Fin N, 0 ≤ s (ix1 n) ∧ s (ix1 n) ≠ ⊤) (hS : ∀ n : Fin N, S (ix2 n (0 : Fin 1)) = s (ix1 n))
    (hB : ∀ c : Fin C, B (ix2 (0 : Fin 1) c) = b (ix1 c)) (hz : ∀ j, z j = 0)
    (hDx : ∀ (i : Fin E) (n : Fin N), (D (ix2 i (0 : Fin 1))).toInt = (n.val : Int) →
      Cert.GatherRows.clampRow N hN (Dx (ix2 i (0 : Fin 1))) = n)
    (n : Fin N) (c : Fin C) :
    Host.scatterAdd (Cert.SegmentDims.rowsDims N C E wfs) z D
        (Host.gather (Cert.GatherRows.rowDims N C E wg2) (fun j => H j * S (ix2 (j 0 : Fin N) (0 : Fin 1))) Sx) (ix2 n c)
        * S (ix2 n (0 : Fin 1)) + B (ix2 (0 : Fin 1) c)
      = addf (Host.scatterAdd (Cert.SegmentDims.rowsDims N C E wfs) z D
          (mulf (Host.gather (Cert.GatherRows.rowDims N C E wg2) H Sx)
            (broadcastInDim ⟨2, ![E, C]⟩ ![0, 1] hEC (broadcastInDim ⟨2, ![E, 1]⟩ ![0] hE1
              (mulf (Host.gather (Cert.GatherRows.vecDims N E wg1) s Sx)
                (Host.gather (Cert.GatherRows.vecDims N E wg1) s Dx))))))
        (broadcastInDim ⟨2, ![N, C]⟩ ![0, 1] h1C (broadcastInDim ⟨2, ![1, C]⟩ ![1] hC1 b)) (ix2 n c) := by
  rw [addf_apply, Cert.DenseRows.rowBias_inDim_apply b hC1 h1C n c,
    scaled_first_apply hN wfs wg2 H s S Sx D z hS hz n c,
    scaled_each_apply hN wfs wg2 wg1 hE1 hEC H s Sx Dx D z hz n c, hS n, hB c, zero_add, zero_add]
  refine congrArg (fun t : EReal => t + b (ix1 c)) ?_
  rw [mul_comm, Cert.NonnegDistrib.mul_sum _ _ (hgood n).1 (hgood n).2]
  refine Finset.sum_congr rfl fun i hi => ?_
  rw [hDx i n (Finset.mem_filter.mp hi).2, mul_comm, mul_assoc]

end Cert.EdgeLayer

end
-- ==== Proof.LibDegreeFactor.lean ====
/-
  Two facts about a graph given by row numbers, used to normalise a neighbourhood sum by degrees.

  The factor of a node is the reciprocal square root of one plus the number of edges arriving at it. One plus a count
  is a positive real, so at the ideal values the factor is a nonnegative real: in particular it is not +∞, which is
  what lets it be moved across sums of arbitrary extended reals.

  A row number read as a signed word names the node n exactly when its signed value is n. Such a word is not negative,
  so the usual adjustment of negative row numbers (add the node count to a negative number, keep the others) leaves it
  alone, and clamping it into the nodes gives n back. So an edge counted at node n by its destination number also reads
  node n when that number is used, adjusted and clamped, to look a value up.
-/
import Idealize.ShloMosaic.PureOps.Ideal.Laws
import Idealize.ShloMosaic.Lib.ValueIdx

noncomputable section

namespace Cert.DegreeFactor

open Idealize.ShloMosaic
open scoped BigOperators

/-- The reciprocal square root of one plus a count is a nonnegative extended real other than +∞. -/
theorem rsqrt_succ_count {ι : Type*} (t : Finset ι) :
    0 ≤ Ideal.rsqrt ((0 + ∑ _i ∈ t, (1 : EReal)) + 1) ∧ Ideal.rsqrt ((0 + ∑ _i ∈ t, (1 : EReal)) + 1) ≠ ⊤ := by
  have hsum : ((0 : EReal) + ∑ _i ∈ t, (1 : EReal)) + 1 = (((t.card : ℝ) + 1 : ℝ) : EReal) := by
    rw [zero_add, Finset.sum_const, nsmul_one, EReal.coe_add, EReal.coe_one, EReal.coe_natCast]
  have hpos : (0 : ℝ) < (t.card : ℝ) + 1 := by positivity
  rw [hsum, Ideal.rsqrt_coe, if_neg (not_lt.mpr hpos.le), if_neg hpos.ne']
  exact ⟨EReal.coe_nonneg.mpr (inv_nonneg.mpr (Real.sqrt_nonneg _)), EReal.coe_ne_top _⟩

/-- A negative row number moved up by `K`, the others kept. -/
def wrapWord (K w : BitVec 32) : BitVec 32 :=
  Scalar.select (IntOp.cmpi .slt w 0#32) (IntOp.addi w K) w

/-- A row number that is not negative is kept. -/
theorem wrapWord_of_nonneg (K w : BitVec 32) (h : 0 ≤ w.toInt) : wrapWord K w = w := by
  unfold wrapWord
  have hs : IntOp.cmpi .slt w 0#32 = 0#1 := by
    unfold IntOp.cmpi
    have : w.slt 0#32 = false := by
      rw [BitVec.slt]
      simp only [BitVec.toInt_zero, decide_eq_false_iff_not, not_lt]
      exact h
    simp only [this]
    rfl
  rw [hs]
  exact ValueIdx.select_zero _ _

end Cert.DegreeFactor
-- ==== Proof.LibAggLaw.lean ====
/-
  Small facts the two aggregation stretches share, none of them about a program.

  * The single-precision word 0x3F800000 denotes 1; a scalar laid over every axis of an array reads as that scalar.
  * A node number below 2^31 written as a 32-bit word reads, signed, as itself.
  * A sum over the entries of a list of a + b items that satisfy a condition is the sum over the first a plus the sum
    over the last b.
  * THE LAW that joins the two programs. Let a node receive the edges i of a finite set T, edge i carrying the feature
    row X i and the weight ν i, and let the node itself carry the row X₀ with weight σ. Multiplying the aggregated row
    Σ_i X i · ν i + σ · X₀ by a weight column w gives the same number as aggregating the products (X i · w) · ν i and
    adding (X₀ · w) · σ: the contraction with w is linear. Over the reals this is distributivity and an exchange of
    two finite sums; the statement on the extended reals is its image under the coercion, which is why every entry
    has to be a real number for it to hold.
-/
import Idealize.ShloMosaic.Lib.ValueIdx
import Idealize.ShloMosaic.Lib.Pipeline.Value
import Idealize.ShloMosaic.PureOps.Ideal.Laws

noncomputable section

namespace Cert.AggLaw

open Idealize.ShloMosaic Idealize.ShloMosaic.ValueIdx
open scoped BigOperators

/-- The word of 1.0. -/
theorem ofBits_one_f32 : Ideal.ofBits .f32 0x3F800000#32 = 1 := by
  simp [Ideal.ofBits, Ideal.ieee]
  exact_mod_cast (by norm_num : ((8388608 : ℝ) * ((2 : ℝ) ^ 23)⁻¹ = 1))

/-- A scalar laid over every axis reads as the scalar. -/
theorem bcast_scalar_apply {α : Type} {s : Shape} (h : (⟨0, ![]⟩ : Shape).BroadcastsInDim s (![] : Fin 0 → Fin s.rank))
    (x : (⟨0, ![]⟩ : Shape).Idx → α) (i : s.Idx) : broadcastInDim s ![] h x i = x ix0 :=
  broadcastInDim_apply ![] h x i ix0 (fun a => a.elim0)

/-- A number below 2^31 written as a 32-bit word reads, signed, as itself. -/
theorem toInt_ofNat_small (j : ℕ) (h : j < 2147483648) : (BitVec.ofNat 32 j).toInt = (j : Int) := by
  rw [BitVec.toInt_eq_toNat_cond, BitVec.toNat_ofNat]
  have : j % 2 ^ 32 = j := Nat.mod_eq_of_lt (by omega)
  rw [this]
  split <;> omega

/-- A filtered sum over a list of a + b items splits at a. -/
theorem sum_filter_fin_add {M : Type*} [AddCommMonoid M] (a b : ℕ) (P : Fin (a + b) → Prop) [DecidablePred P]
    (f : Fin (a + b) → M) :
    ∑ i ∈ Finset.univ.filter P, f i
      = ∑ i ∈ Finset.univ.filter (fun i : Fin a => P (Fin.castAdd b i)), f (Fin.castAdd b i)
        + ∑ j ∈ Finset.univ.filter (fun j : Fin b => P (Fin.natAdd a j)), f (Fin.natAdd a j) := by
  simp only [Finset.sum_filter]
  exact Fin.sum_univ_add _

/-- The entries of a list of row numbers that arrive at node `n`: those whose word, read signed, is `n`. -/
def landing {E N : ℕ} (d : Fin E → BitVec 32) (n : Fin N) : Finset (Fin E) :=
  Finset.univ.filter fun i => (d i).toInt = (n.val : Int)

/-- The coercion of a finite sum of reals. -/
theorem coe_sum {ι : Type*} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

/-- The law over the reals: the contraction with a weight column commutes with the aggregation. -/
theorem real_law {ι : Type*} {K : ℕ} (T : Finset ι) (X : ι → Fin K → ℝ) (ν : ι → ℝ) (X0 : Fin K → ℝ) (σ : ℝ)
    (w : Fin K → ℝ) :
    ∑ j : Fin K, ((∑ i ∈ T, X i j * ν i) + σ * X0 j) * w j
      = (∑ i ∈ T, (∑ j : Fin K, X i j * w j) * ν i) + (∑ j : Fin K, X0 j * w j) * σ := by
  simp only [add_mul, Finset.sum_add_distrib, Finset.sum_mul]
  rw [Finset.sum_comm]
  congr 1
  · exact Finset.sum_congr rfl fun i _ => Finset.sum_congr rfl fun j _ => by ring
  · exact Finset.sum_congr rfl fun j _ => by ring

/-- The same law on the extended reals at real entries, in the arrangement the two programs print: the accumulating
    sums start from 0, an edge's weight is the product of its two ends' factors, the node's own weight a square. -/
theorem agg_law {ι : Type*} {K : ℕ} (T : Finset ι) (X : ι → Fin K → ℝ) (ν₁ ν₂ : ι → ℝ) (X0 : Fin K → ℝ) (σ : ℝ)
    (w : Fin K → ℝ) :
    ∑ j : Fin K, (((0 : EReal) + ∑ i ∈ T, (X i j : EReal) * ((ν₁ i : EReal) * (ν₂ i : EReal)))
        + ((σ : EReal) * (σ : EReal)) * (X0 j : EReal)) * (w j : EReal)
      = ((0 : EReal) + ∑ i ∈ T, (∑ j : Fin K, (X i j : EReal) * (w j : EReal)) * ((ν₁ i : EReal) * (ν₂ i : EReal)))
        + (∑ j : Fin K, (X0 j : EReal) * (w j : EReal)) * ((σ : EReal) * (σ : EReal)) := by
  simp only [zero_add, ← EReal.coe_mul, ← coe_sum, ← EReal.coe_add]
  exact congrArg _ (real_law T X (fun i => ν₁ i * ν₂ i) X0 (σ * σ) w)

end Cert.AggLaw

end
-- ==== Proof.KerAggRead.lean ====
/-
  The kernel program's aggregation stretch read at an index.

  With `d i` the destination number of edge i as given, and `σ i`, `δ i` the rows its source and destination numbers
  name once a negative number has been moved up by the node count and the result clamped into the nodes:
  * the degree of node n is (0 + the number of edges i with d i = n) + 1;
  * its factor f n is the reciprocal square root of that, a nonnegative real;
  * the aggregated feature (n, k) is (0 + Σ over the edges i with d i = n of x (σ i, k) · (f (σ i) · f (δ i)))
    + (f n · f n) · x (n, k).
-/
import proofs.«177523_j83915071030244_2_alg».proof.Proof.KerAggDef
import proofs.«177523_j83915071030244_2_alg».proof.Proof.LibEdgeLayer
import proofs.«177523_j83915071030244_2_alg».proof.Proof.LibDegreeFactor
import proofs.«177523_j83915071030244_2_alg».proof.Proof.LibAggLaw

noncomputable section

namespace Cert.KerAggRead

open Cert.KernelIdeal Cert.KernelIdeal.Gen Cert.KerAgg Cert.AggLaw Idealize.ShloMosaic Idealize.ShloMosaic.ValueIdx
open scoped BigOperators

/-- A column of row numbers at row i is the list's entry i. -/
theorem colE_apply (v : (⟨S800000, .i32⟩ : BufTy).Contents (Elt Ideal)) (i : Fin 800000) :
    colE v (ix2 i (0 : Fin 1)) = v (ix1 i) :=
  Cert.DenseRows.broadcastInDim_a_a1_apply v bcast_S800000_S800000x1_0 i 0

/-- The row an adjusted row number names. -/
def rowOf (v : (⟨S800000, .i32⟩ : BufTy).Contents (Elt Ideal)) (i : Fin 800000) : Fin 50000 :=
  Cert.GatherRows.clampRow 50000 (by decide) (wrapE v (ix1 i))

/-- The host's reciprocal square root reads entry by entry. -/
theorem hostRsqrt_apply {s : Shape} (v : FVec Ideal s .f32) (i : s.Idx) : Host.rsqrt v i = Ideal.rsqrt (v i) := rfl

/-- The zero vector over the nodes reads 0. -/
theorem zeroN_apply (n : Fin 50000) :
    (broadcastInDim S50000 ![] bcast_S_S50000 (constant (F := Ideal) S_ .f32 0x00000000#32)) (ix1 n) = 0 := by
  rw [bcast_scalar_apply, constant_apply, Ideal.ofBits_zero_f32]

/-- The all-ones vector over the nodes reads 1. -/
theorem oneN_apply (n : Fin 50000) :
    (broadcastInDim S50000 ![] bcast_S_S50000 (constant (F := Ideal) S_ .f32 0x3F800000#32)) (ix1 n) = 1 := by
  rw [bcast_scalar_apply, constant_apply, ofBits_one_f32]

/-- The all-ones vector over the edges reads 1. -/
theorem oneE_apply (i : Fin 800000) :
    (broadcastInDim S800000 ![] bcast_S_S800000 (constant (F := Ideal) S_ .f32 0x3F800000#32)) (ix1 i) = 1 := by
  rw [bcast_scalar_apply, constant_apply, ofBits_one_f32]

/-- The edges a column of the given destination numbers sends to node n. -/
theorem landing_colE (v : (⟨S800000, .i32⟩ : BufTy).Contents (Elt Ideal)) (n : Fin 50000) :
    Finset.univ.filter (fun i : Fin 800000 => ((colE v) (ix2 i (0 : Fin 1))).toInt = (n.val : Int))
      = landing (fun i : Fin 800000 => v (ix1 i)) n := by
  unfold landing
  simp only [colE_apply]

/-- Ones added up at the destinations, read at node n. -/
theorem count_apply (x1 : (⟨S2x800000, .i32⟩ : BufTy).Contents (Elt Ideal)) (n : Fin 50000)
    (z : FVec Ideal S50000 .f32) (u : FVec Ideal S800000 .f32) :
    Host.scatterAdd scatter_S50000_S800000x1_S800000_n_0_0_1 z (colE (kerDst x1)) u (ix1 n)
      = z (ix1 n) + ∑ i ∈ landing (fun i : Fin 800000 => kerDst x1 (ix1 i)) n, u (ix1 i) := by
  rw [← landing_colE]
  exact Cert.SegmentSum.scatterAdd_vec_apply
    (Cert.SegmentDims.vecDims 50000 800000 scatter_S50000_S800000x1_S800000_n_0_0_1_wf)
    (fun i idx => Cert.SegmentDims.vec_start0 _ i idx) (Cert.SegmentDims.vec_window0 _) z _ u n

/-- The degree of node n. -/
theorem kerDeg_apply (x1 : (⟨S2x800000, .i32⟩ : BufTy).Contents (Elt Ideal)) (n : Fin 50000) :
    kerDeg (F := Ideal) x1 (ix1 n)
      = ((0 : EReal) + ∑ _i ∈ landing (fun i : Fin 800000 => kerDst x1 (ix1 i)) n, (1 : EReal)) + 1 := by
  unfold kerDeg
  rw [addf_apply, count_apply, zeroN_apply, oneN_apply]
  exact congrArg (fun t : EReal => (0 + t) + 1) (Finset.sum_congr rfl fun i _ => oneE_apply i)

/-- The factor of node n. -/
theorem kerFactor_apply (x1 : (⟨S2x800000, .i32⟩ : BufTy).Contents (Elt Ideal)) (n : Fin 50000) :
    kerFactor (F := Ideal) x1 (ix1 n)
      = Ideal.rsqrt (((0 : EReal) + ∑ _i ∈ landing (fun i : Fin 800000 => kerDst x1 (ix1 i)) n, (1 : EReal)) + 1) := by
  unfold kerFactor
  rw [hostRsqrt_apply, kerDeg_apply]

/-- The factor is a nonnegative extended real other than +∞. -/
theorem kerFactor_good (x1 : (⟨S2x800000, .i32⟩ : BufTy).Contents (Elt Ideal)) (n : Fin 50000) :
    0 ≤ kerFactor (F := Ideal) x1 (ix1 n) ∧ kerFactor (F := Ideal) x1 (ix1 n) ≠ ⊤ := by
  rw [kerFactor_apply]
  exact Cert.DegreeFactor.rsqrt_succ_count _

/-- The aggregated feature (n, k). -/
theorem kerAgg_apply (x0 : (⟨S50000x64, .f32⟩ : BufTy).Contents (Elt Ideal))
    (x1 : (⟨S2x800000, .i32⟩ : BufTy).Contents (Elt Ideal)) (n : Fin 50000) (k : Fin 64) :
    kerAgg (F := Ideal) x0 x1 (ix2 n k)
      = ((0 : EReal) + ∑ i ∈ landing (fun i : Fin 800000 => kerDst x1 (ix1 i)) n,
          x0 (ix2 (rowOf (kerSrc x1) i) k)
            * (kerFactor (F := Ideal) x1 (ix1 (rowOf (kerSrc x1) i)) * kerFactor (F := Ideal) x1 (ix1 (rowOf (kerDst x1) i))))
        + (kerFactor (F := Ideal) x1 (ix1 n) * kerFactor (F := Ideal) x1 (ix1 n)) * x0 (ix2 n k) := by
  unfold kerAgg
  rw [addf_apply]
  refine congrArg₂ (· + ·) ?_ ?_
  · have hz : ∀ j, (broadcastInDim S50000x64 ![] bcast_S_S50000x64 (constant (F := Ideal) S_ .f32 0x00000000#32)) j = 0 :=
      fun j => by rw [bcast_scalar_apply, constant_apply, Ideal.ofBits_zero_f32]
    have h := Cert.EdgeLayer.scaled_each_apply (N := 50000) (C := 64) (E := 800000) (by decide)
      scatter_S50000x64_S800000x1_S800000x64_1_0_0_1_wf gather_S50000x64_S800000x1_S800000x64_1_0_n_n_0_1_164_wf
      gather_S50000_S800000x1_S800000_n_0_n_n_0_1_1_wf bcast_S800000_S800000x1_0 bcast_S800000x1_S800000x64_0_1
      x0 (kerFactor (F := Ideal) x1) (colE (wrapE (kerSrc x1))) (colE (wrapE (kerDst x1))) (colE (kerDst x1))
      (broadcastInDim S50000x64 ![] bcast_S_S50000x64 (constant (F := Ideal) S_ .f32 0x00000000#32)) hz n k
    rw [landing_colE] at h
    simp only [colE_apply] at h
    exact h
  · unfold kerSelf
    rw [mulf_apply, Cert.DenseRows.broadcastInDim_a1_ab_apply _ bcast_S50000x1_S50000x64_0_1 n k,
      Cert.DenseRows.broadcastInDim_a_a1_apply _ bcast_S50000_S50000x1_0 n 0, mulf_apply]

end Cert.KerAggRead

end
-- ==== Proof.RefAggDef.lean ====
/-
  The reference's aggregation stretch, as staged functions of the argument arrays.

  The edge list is the given one followed by one loop per node: `srcAll` and `dstAll` are the two rows of the given
  table, each with the node numbers 0 … 49999 appended. A node's degree is the number of list entries that arrive at
  it (`degAll`: ones added up at the destinations), its factor is the reciprocal square root of that degree where the
  degree is positive (guarded by a maximum with one) and zero elsewhere (`factor`). Every entry's message is the row of
  the product `x · W` at the entry's source, times the factors of its two ends (`msgs`); `refAgg` adds the messages up
  at the destinations and adds the bias row. A row number that is negative is first moved up by the node count
  (`wrapAll`) wherever it is used to look a row up; the sums at the destinations use the numbers as given.
-/
import proofs.«177523_j83915071030244_2_alg».proof.Proof.Gen.ReferenceIdeal

noncomputable section

namespace Cert.RefAgg

open Cert.ReferenceIdeal Cert.ReferenceIdeal.Gen Idealize.ShloMosaic Idealize.SL.Sem

variable {F : FTy → Type} [FloatOps F]

/-- The node numbers 0 … 49999. -/
def loopIdx : (⟨S50000, .i32⟩ : BufTy).Contents (Elt F) := iotaInDim S50000 32 0

/-- The given sources followed by the node numbers. -/
def srcAll (x1 : (⟨S2x800000, .i32⟩ : BufTy).Contents (Elt F)) : (⟨S850000, .i32⟩ : BufTy).Contents (Elt F) :=
  concatenate S850000 0 [⟨S800000, shapeCast _ (extractStridedSlice S1x800000 ![0, 0] x1 slices_S2x800000_S1x800000_0_0)
    shapeCasts_S1x800000_S800000⟩, ⟨S50000, loopIdx (F := F)⟩] concatenates_S800000_S50000_S850000_d0

/-- The given destinations followed by the node numbers. -/
def dstAll (x1 : (⟨S2x800000, .i32⟩ : BufTy).Contents (Elt F)) : (⟨S850000, .i32⟩ : BufTy).Contents (Elt F) :=
  concatenate S850000 0 [⟨S800000, shapeCast _ (extractStridedSlice S1x800000 ![1, 0] x1 slices_S2x800000_S1x800000_1_0)
    shapeCasts_S1x800000_S800000⟩, ⟨S50000, loopIdx (F := F)⟩] concatenates_S800000_S50000_S850000_d0

/-- Negative row numbers moved up by the node count, the others kept. -/
def wrapAll (v : (⟨S850000, .i32⟩ : BufTy).Contents (Elt F)) : (⟨S850000, .i32⟩ : BufTy).Contents (Elt F) :=
  select (cmpi .slt v (broadcastInDim S850000 ![] bcast_S_S850000 (constantI S_ 32 0#32)))
    (addi v (broadcastInDim S850000 ![] bcast_S_S850000 (constantI S_ 32 50000#32))) v

/-- A list of row numbers as a column. -/
def colI (v : (⟨S850000, .i32⟩ : BufTy).Contents (Elt F)) : (⟨S850000x1, .i32⟩ : BufTy).Contents (Elt F) :=
  broadcastInDim S850000x1 ![0] bcast_S850000_S850000x1_0 v

/-- The zero vector over the nodes. -/
def zeroN : (⟨S50000, .f32⟩ : BufTy).Contents (Elt F) :=
  broadcastInDim S50000 ![] bcast_S_S50000 (constant (F := F) S_ .f32 0x00000000#32)

/-- The all-ones vector over the nodes. -/
def oneN : (⟨S50000, .f32⟩ : BufTy).Contents (Elt F) :=
  broadcastInDim S50000 ![] bcast_S_S50000 (constant (F := F) S_ .f32 0x3F800000#32)

/-- The degrees: ones added up at the destinations. -/
def degAll (x1 : (⟨S2x800000, .i32⟩ : BufTy).Contents (Elt F)) : (⟨S50000, .f32⟩ : BufTy).Contents (Elt F) :=
  Host.scatterAdd scatter_S50000_S850000x1_S850000_n_0_0_1 (zeroN (F := F)) (colI (dstAll x1))
    (broadcastInDim S850000 ![] bcast_S_S850000 (constant (F := F) S_ .f32 0x3F800000#32))

/-- The factor of a node: the reciprocal square root of its degree where that is positive, zero elsewhere. -/
def factor (x1 : (⟨S2x800000, .i32⟩ : BufTy).Contents (Elt F)) : (⟨S50000, .f32⟩ : BufTy).Contents (Elt F) :=
  select (cmpf .ogt (degAll x1) (zeroN (F := F))) (Host.rsqrt (maximumf (degAll x1) (oneN (F := F))))
    (broadcastInDim S50000 ![] bcast_S_S50000 (id (constant (F := F) S_ .f32 0x00000000#32)))

/-- The product of the node features with the weights. -/
def xw (x0 : (⟨S50000x64, .f32⟩ : BufTy).Contents (Elt F)) (x2 : (⟨S64x128, .f32⟩ : BufTy).Contents (Elt F)) :
    (⟨S50000x128, .f32⟩ : BufTy).Contents (Elt F) :=
  Host.dotGeneral dot_S50000x64_S64x128_S50000x128_1_0_0_1_n_n none x0 x2

/-- The weight of every list entry: the factors of its two ends. -/
def edgeW (x1 : (⟨S2x800000, .i32⟩ : BufTy).Contents (Elt F)) : (⟨S850000, .f32⟩ : BufTy).Contents (Elt F) :=
  mulf (Host.gather gather_S50000_S850000x1_S850000_n_0_n_n_0_1_1 (factor x1) (colI (wrapAll (srcAll x1))))
    (Host.gather gather_S50000_S850000x1_S850000_n_0_n_n_0_1_1 (factor x1) (colI (wrapAll (dstAll x1))))

/-- Every list entry's message. -/
def msgs (x0 : (⟨S50000x64, .f32⟩ : BufTy).Contents (Elt F)) (x1 : (⟨S2x800000, .i32⟩ : BufTy).Contents (Elt F))
    (x2 : (⟨S64x128, .f32⟩ : BufTy).Contents (Elt F)) : (⟨S850000x128, .f32⟩ : BufTy).Contents (Elt F) :=
  mulf (Host.gather gather_S50000x128_S850000x1_S850000x128_1_0_n_n_0_1_1128 (xw x0 x2) (colI (wrapAll (srcAll x1))))
    (broadcastInDim S850000x128 ![0, 1] bcast_S850000x1_S850000x128_0_1
      (broadcastInDim S850000x1 ![0] bcast_S850000_S850000x1_0 (edgeW x1)))

/-- The aggregated table plus the bias row: what the normalisation takes. -/
def refAgg (x0 : (⟨S50000x64, .f32⟩ : BufTy).Contents (Elt F)) (x1 : (⟨S2x800000, .i32⟩ : BufTy).Contents (Elt F))
    (x2 : (⟨S64x128, .f32⟩ : BufTy).Contents (Elt F)) (x3 : (⟨S128, .f32⟩ : BufTy).Contents (Elt F)) :
    (⟨S50000x128, .f32⟩ : BufTy).Contents (Elt F) :=
  addf (Host.scatterAdd scatter_S50000x128_S850000x1_S850000x128_1_0_0_1
      (broadcastInDim S50000x128 ![] bcast_S_S50000x128 (constant (F := F) S_ .f32 0x00000000#32)) (colI (dstAll x1)) (msgs x0 x1 x2))
    (broadcastInDim S50000x128 ![0, 1] bcast_S1x128_S50000x128_0_1 (broadcastInDim S1x128 ![1] bcast_S128_S1x128_1 x3))

end Cert.RefAgg

end
-- ==== Proof.RefAggRead.lean ====
/-
  The reference's aggregation stretch read at an index.

  Its list has 850000 entries: entry i < 800000 is the given edge i, entry 800000 + j is the loop at node j. Read at
  an index, each operation over the list therefore splits into a sum over the given edges that arrive at a node n and
  one more term for the loop at n (the loop at j carries the number j, which read signed is j, so exactly the loop at
  n arrives at n; it is not negative, so it is kept by the adjustment of negative numbers, and clamping it gives n).
  * The degree of n is (0 + the number of given edges arriving at n) + 1: at least one, so the guard `degree > 0`
    holds and the maximum with one is the degree itself, and the factor of n is the reciprocal square root of the
    degree — the same number the other program computes.
  * The aggregated entry (n, q) is ((0 + Σ over the given edges i arriving at n of
    (x·W) (σ i, q) · (f (σ i) · f (δ i))) + (x·W) (n, q) · (f n · f n)) + b q.
-/
import proofs.«177523_j83915071030244_2_alg».proof.Proof.RefAggDef
import proofs.«177523_j83915071030244_2_alg».proof.Proof.LibEdgeLayer
import proofs.«177523_j83915071030244_2_alg».proof.Proof.LibDegreeFactor
import proofs.«177523_j83915071030244_2_alg».proof.Proof.LibAggLaw

noncomputable section

namespace Cert.RefAggRead

open Cert.ReferenceIdeal Cert.ReferenceIdeal.Gen Cert.RefAgg Cert.AggLaw Idealize.ShloMosaic Idealize.ShloMosaic.ValueIdx
open scoped BigOperators

/-- Given edge i as an entry of the whole list. -/
def eL (i : Fin 800000) : Fin 850000 := ⟨i.val, by have := i.isLt; omega⟩

/-- The loop at node j as an entry of the whole list. -/
def eR (j : Fin 50000) : Fin 850000 := ⟨800000 + j.val, by have := j.isLt; omega⟩

/-- The given sources. -/
def srcRow (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- The given destinations. -/
def dstRow (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

variable {α : Type}

/-- The joined list at a given edge. -/
theorem cat_left (a : S800000.Idx → α) (b : S50000.Idx → α) (i : Fin 800000) :
    concatenate S850000 0 [⟨S800000, a⟩, ⟨S50000, b⟩] concatenates_S800000_S50000_S850000_d0 (ix1 (eL i)) = a (ix1 i) :=
  concatenate_pair_apply_left (0 : Fin 1) a b concatenates_S800000_S50000_S850000_d0 (ix1 (eL i)) rfl (ix1 i)
    (fun b => by match b with | ⟨0, _⟩ => rfl)

/-- The joined list at a loop. -/
theorem cat_right (a : S800000.Idx → α) (b : S50000.Idx → α) (j : Fin 50000) :
    concatenate S850000 0 [⟨S800000, a⟩, ⟨S50000, b⟩] concatenates_S800000_S50000_S850000_d0 (ix1 (eR j)) = b (ix1 j) :=
  concatenate_pair_apply_right (0 : Fin 1) a b concatenates_S800000_S50000_S850000_d0 (ix1 (eR j)) rfl rfl (ix1 j)
    (fun b hb => by match b with | ⟨0, _⟩ => exact absurd rfl hb)
    (by show j.val + 800000 = 800000 + j.val; omega)

theorem srcAll_left (x1 : (⟨S2x800000, .i32⟩ : BufTy).Contents (Elt Ideal)) (i : Fin 800000) :
    srcAll (F := Ideal) x1 (ix1 (eL i)) = srcRow x1 (ix1 i) := cat_left _ _ i

theorem srcAll_right (x1 : (⟨S2x800000, .i32⟩ : BufTy).Contents (Elt Ideal)) (j : Fin 50000) :
    srcAll (F := Ideal) x1 (ix1 (eR j)) = BitVec.ofNat 32 j.val := cat_right _ _ j

theorem dstAll_left (x1 : (⟨S2x800000, .i32⟩ : BufTy).Contents (Elt Ideal)) (i : Fin 800000) :
    dstAll (F := Ideal) x1 (ix1 (eL i)) = dstRow x1 (ix1 i) := cat_left _ _ i

theorem dstAll_right (x1 : (⟨S2x800000, .i32⟩ : BufTy).Contents (Elt Ideal)) (j : Fin 50000) :
    dstAll (F := Ideal) x1 (ix1 (eR j)) = BitVec.ofNat 32 j.val := cat_right _ _ j

/-- A column of row numbers at row i is the list's entry i. -/
theorem colI_apply (v : (⟨S850000, .i32⟩ : BufTy).Contents (Elt Ideal)) (i : Fin 850000) :
    colI v (ix2 i (0 : Fin 1)) = v (ix1 i) :=
  Cert.DenseRows.broadcastInDim_a_a1_apply v bcast_S850000_S850000x1_0 i 0

/-- The adjustment of negative row numbers, entry by entry. -/
theorem wrapAll_apply (v : (⟨S850000, .i32⟩ : BufTy).Contents (Elt Ideal)) (i : Fin 850000) :
    wrapAll (F := Ideal) v (ix1 i) = Cert.DegreeFactor.wrapWord 50000#32 (v (ix1 i)) := by
  unfold wrapAll Cert.DegreeFactor.wrapWord
  rw [select_apply]
  show Scalar.select (IntOp.cmpi .slt (v (ix1 i)) (broadcastInDim S850000 ![] bcast_S_S850000 (constantI S_ 32 0#32) (ix1 i)))
    (IntOp.addi (v (ix1 i)) (broadcastInDim S850000 ![] bcast_S_S850000 (constantI S_ 32 50000#32) (ix1 i))) (v (ix1 i)) = _
  rw [bcast_scalar_apply, bcast_scalar_apply, constantI_apply, constantI_apply]

/-- The row an adjusted word names. -/
def rowW (w : BitVec 32) : Fin 50000 := Cert.GatherRows.clampRow 50000 (by decide) (Cert.DegreeFactor.wrapWord 50000#32 w)

/-- The loop at node j names node j. -/
theorem rowW_loop (j : Fin 50000) : rowW (BitVec.ofNat 32 j.val) = j := by
  have hj : (BitVec.ofNat 32 j.val).toInt = (j.val : Int) := toInt_ofNat_small j.val (by have := j.isLt; omega)
  unfold rowW
  rw [Cert.DegreeFactor.wrapWord_of_nonneg _ _ (by rw [hj]; exact Int.natCast_nonneg _)]
  exact Cert.GatherRows.clampRow_of_toInt _ _ j hj

/-- Exactly the loop at n arrives at n. -/
theorem landing_loop (n : Fin 50000) : landing (fun j : Fin 50000 => BitVec.ofNat 32 j.val) n = {n} := by
  ext j
  unfold landing
  rw [Finset.mem_filter, Finset.mem_singleton, toInt_ofNat_small j.val (by have := j.isLt; omega)]
  constructor
  · rintro ⟨_, h⟩
    exact Fin.ext (by exact_mod_cast h)
  · rintro rfl
    exact ⟨Finset.mem_univ _, rfl⟩

/-- A sum over the entries of the whole list that arrive at n: the given edges arriving at n, and the loops arriving
    at n. -/
theorem sum_landing_split {M : Type*} [AddCommMonoid M] (d : Fin 850000 → BitVec 32) (n : Fin 50000) (f : Fin 850000 → M) :
    ∑ i ∈ landing d n, f i
      = ∑ i ∈ landing (fun i : Fin 800000 => d (eL i)) n, f (eL i) + ∑ j ∈ landing (fun j : Fin 50000 => d (eR j)) n, f (eR j) :=
  sum_filter_fin_add 800000 50000 (fun i : Fin 850000 => (d i).toInt = (n.val : Int)) f

/-- The whole list's destinations arriving at n, for a sum: the given edges arriving at n plus the term of the loop at n. -/
theorem sum_landing_dstAll {M : Type*} [AddCommMonoid M] (x1 : (⟨S2x800000, .i32⟩ : BufTy).Contents (Elt Ideal)) (n : Fin 50000)
    (f : Fin 850000 → M) :
    ∑ i ∈ landing (fun i : Fin 850000 => dstAll (F := Ideal) x1 (ix1 i)) n, f i
      = ∑ i ∈ landing (fun i : Fin 800000 => dstRow x1 (ix1 i)) n, f (eL i) + f (eR n) := by
  rw [sum_landing_split]
  simp only [dstAll_left, dstAll_right]
  rw [landing_loop, Finset.sum_singleton]

/-- The host's reciprocal square root reads entry by entry. -/
theorem hostRsqrt_apply {s : Shape} (v : FVec Ideal s .f32) (i : s.Idx) : Host.rsqrt v i = Ideal.rsqrt (v i) := rfl

theorem zeroN_apply (n : Fin 50000) : zeroN (F := Ideal) (ix1 n) = 0 := by
  unfold zeroN
  rw [bcast_scalar_apply, constant_apply, Ideal.ofBits_zero_f32]

theorem oneN_apply (n : Fin 50000) : oneN (F := Ideal) (ix1 n) = 1 := by
  unfold oneN
  rw [bcast_scalar_apply, constant_apply, ofBits_one_f32]

theorem oneAll_apply (i : Fin 850000) :
    (broadcastInDim S850000 ![] bcast_S_S850000 (constant (F := Ideal) S_ .f32 0x3F800000#32)) (ix1 i) = 1 := by
  rw [bcast_scalar_apply, constant_apply, ofBits_one_f32]

/-- The entries a column of row numbers sends to node n. -/
theorem landing_colI (v : (⟨S850000, .i32⟩ : BufTy).Contents (Elt Ideal)) (n : Fin 50000) :
    Finset.univ.filter (fun i : Fin 850000 => ((colI v) (ix2 i (0 : Fin 1))).toInt = (n.val : Int))
      = landing (fun i : Fin 850000 => v (ix1 i)) n := by
  unfold landing
  simp only [colI_apply]

/-- Values added up at the whole list's destinations, read at node n: the given edges arriving at n, and the loop at n. -/
theorem count_apply (x1 : (⟨S2x800000, .i32⟩ : BufTy).Contents (Elt Ideal)) (n : Fin 50000)
    (z : FVec Ideal S50000 .f32) (u : FVec Ideal S850000 .f32) :
    Host.scatterAdd scatter_S50000_S850000x1_S850000_n_0_0_1 z (colI (dstAll (F := Ideal) x1)) u (ix1 n)
      = z (ix1 n) + (∑ i ∈ landing (fun i : Fin 800000 => dstRow x1 (ix1 i)) n, u (ix1 (eL i)) + u (ix1 (eR n))) := by
  rw [← sum_landing_dstAll x1 n (fun i => u (ix1 i)), ← landing_colI]
  exact Cert.SegmentSum.scatterAdd_vec_apply
    (Cert.SegmentDims.vecDims 50000 850000 scatter_S50000_S850000x1_S850000_n_0_0_1_wf)
    (fun i idx => Cert.SegmentDims.vec_start0 _ i idx) (Cert.SegmentDims.vec_window0 _) z _ u n

/-- The degree of node n: the given edges arriving at it, and its loop. -/
theorem degAll_apply (x1 : (⟨S2x800000, .i32⟩ : BufTy).Contents (Elt Ideal)) (n : Fin 50000) :
    degAll (F := Ideal) x1 (ix1 n)
      = ((0 : EReal) + ∑ _i ∈ landing (fun i : Fin 800000 => dstRow x1 (ix1 i)) n, (1 : EReal)) + 1 := by
  unfold degAll
  rw [count_apply, zeroN_apply, oneAll_apply, ← add_assoc]
  exact congrArg (fun t : EReal => (0 + t) + 1) (Finset.sum_congr rfl fun i _ => oneAll_apply (eL i))

/-- The factor of node n: its degree is at least one, so the guard holds and the maximum with one is the degree. -/
theorem factor_apply (x1 : (⟨S2x800000, .i32⟩ : BufTy).Contents (Elt Ideal)) (n : Fin 50000) :
    factor (F := Ideal) x1 (ix1 n)
      = Ideal.rsqrt (((0 : EReal) + ∑ _i ∈ landing (fun i : Fin 800000 => dstRow x1 (ix1 i)) n, (1 : EReal)) + 1) := by
  unfold factor
  rw [select_apply, cmpf_apply, hostRsqrt_apply, maximumf_apply, degAll_apply, zeroN_apply, oneN_apply]
  generalize landing (fun i : Fin 800000 => dstRow x1 (ix1 i)) n = T
  have hsum : ((0 : EReal) + ∑ _i ∈ T, (1 : EReal)) + 1 = (((T.card : ℝ) + 1 : ℝ) : EReal) := by
    rw [zero_add, Finset.sum_const, nsmul_one, EReal.coe_add, EReal.coe_one, EReal.coe_natCast]
  rw [hsum]
  have hc : (0 : ℝ) ≤ (T.card : ℝ) := Nat.cast_nonneg _
  have h0 : (0 : EReal) < (((T.card : ℝ) + 1 : ℝ) : EReal) := EReal.coe_pos.mpr (by linarith)
  have h1 : (1 : EReal) ≤ (((T.card : ℝ) + 1 : ℝ) : EReal) := by
    rw [← EReal.coe_one]; exact EReal.coe_le_coe_iff.mpr (by linarith)
  rw [max_eq_left h1]
  have hg : FloatOps.cmpf (F := Ideal) (φ := .f32) .ogt (((T.card : ℝ) + 1 : ℝ) : EReal) 0 = 1#1 := by
    show BitVec.ofBool (decide ((0 : EReal) < (((T.card : ℝ) + 1 : ℝ) : EReal))) = 1#1
    rw [decide_eq_true h0]
    rfl
  rw [hg, select_one]

/-- The product of the node features with the weights, entry by entry. -/
theorem xw_apply (x0 : (⟨S50000x64, .f32⟩ : BufTy).Contents (Elt Ideal)) (x2 : (⟨S64x128, .f32⟩ : BufTy).Contents (Elt Ideal))
    (r : Fin 50000) (q : Fin 128) :
    xw (F := Ideal) x0 x2 (ix2 r q) = ∑ j : Fin 64, x0 (ix2 r j) * x2 (ix2 j q) :=
  Cert.DenseRows.dotGeneral_plain_apply dot_S50000x64_S64x128_S50000x128_1_0_0_1_n_n rfl rfl rfl rfl
    (fun _ _ => rfl) (fun _ _ => rfl) x0 x2 r q

/-- The loop at node j names node j, whatever proof of positivity the clamp carries. -/
theorem clamp_loop (h : 0 < 50000) (j : Fin 50000) :
    Cert.GatherRows.clampRow 50000 h (Cert.DegreeFactor.wrapWord 50000#32 (BitVec.ofNat 32 j.val)) = j := rowW_loop j

/-- The aggregated entry (n, q). -/
theorem refAgg_apply (x0 : (⟨S50000x64, .f32⟩ : BufTy).Contents (Elt Ideal))
    (x1 : (⟨S2x800000, .i32⟩ : BufTy).Contents (Elt Ideal)) (x2 : (⟨S64x128, .f32⟩ : BufTy).Contents (Elt Ideal))
    (x3 : (⟨S128, .f32⟩ : BufTy).Contents (Elt Ideal)) (n : Fin 50000) (q : Fin 128) :
    refAgg (F := Ideal) x0 x1 x2 x3 (ix2 n q)
      = (((0 : EReal) + ∑ i ∈ landing (fun i : Fin 800000 => dstRow x1 (ix1 i)) n,
            xw (F := Ideal) x0 x2 (ix2 (rowW (srcRow x1 (ix1 i))) q)
              * (factor (F := Ideal) x1 (ix1 (rowW (srcRow x1 (ix1 i)))) * factor (F := Ideal) x1 (ix1 (rowW (dstRow x1 (ix1 i))))))
          + xw (F := Ideal) x0 x2 (ix2 n q) * (factor (F := Ideal) x1 (ix1 n) * factor (F := Ideal) x1 (ix1 n)))
        + x3 (ix1 q) := by
  unfold refAgg
  rw [addf_apply, Cert.DenseRows.rowBias_inDim_apply x3 bcast_S128_S1x128_1 bcast_S1x128_S50000x128_0_1 n q]
  refine congrArg (fun t : EReal => t + x3 (ix1 q)) ?_
  unfold msgs edgeW
  have hz : ∀ j, (broadcastInDim S50000x128 ![] bcast_S_S50000x128 (constant (F := Ideal) S_ .f32 0x00000000#32)) j = 0 :=
    fun j => by rw [bcast_scalar_apply, constant_apply, Ideal.ofBits_zero_f32]
  have key : Host.scatterAdd scatter_S50000x128_S850000x1_S850000x128_1_0_0_1
        (broadcastInDim S50000x128 ![] bcast_S_S50000x128 (constant (F := Ideal) S_ .f32 0x00000000#32)) (colI (dstAll (F := Ideal) x1))
        (mulf (Host.gather gather_S50000x128_S850000x1_S850000x128_1_0_n_n_0_1_1128 (xw (F := Ideal) x0 x2) (colI (wrapAll (srcAll (F := Ideal) x1))))
          (broadcastInDim S850000x128 ![0, 1] bcast_S850000x1_S850000x128_0_1 (broadcastInDim S850000x1 ![0] bcast_S850000_S850000x1_0
            (mulf (Host.gather gather_S50000_S850000x1_S850000_n_0_n_n_0_1_1 (factor (F := Ideal) x1) (colI (wrapAll (srcAll (F := Ideal) x1))))
              (Host.gather gather_S50000_S850000x1_S850000_n_0_n_n_0_1_1 (factor (F := Ideal) x1) (colI (wrapAll (dstAll (F := Ideal) x1))))))))
        (ix2 n q)
      = 0 + ∑ i ∈ Finset.univ.filter (fun i : Fin 850000 => ((colI (dstAll (F := Ideal) x1)) (ix2 i (0 : Fin 1))).toInt = (n.val : Int)),
          xw (F := Ideal) x0 x2 (ix2 (Cert.GatherRows.clampRow 50000 (by decide) ((colI (wrapAll (srcAll (F := Ideal) x1))) (ix2 i (0 : Fin 1)))) q)
            * (factor (F := Ideal) x1 (ix1 (Cert.GatherRows.clampRow 50000 (by decide) ((colI (wrapAll (srcAll (F := Ideal) x1))) (ix2 i (0 : Fin 1)))))
                * factor (F := Ideal) x1 (ix1 (Cert.GatherRows.clampRow 50000 (by decide) ((colI (wrapAll (dstAll (F := Ideal) x1))) (ix2 i (0 : Fin 1)))))) :=
    Cert.EdgeLayer.scaled_each_apply (N := 50000) (C := 128) (E := 850000) (by decide)
      scatter_S50000x128_S850000x1_S850000x128_1_0_0_1_wf gather_S50000x128_S850000x1_S850000x128_1_0_n_n_0_1_1128_wf
      gather_S50000_S850000x1_S850000_n_0_n_n_0_1_1_wf bcast_S850000_S850000x1_0 bcast_S850000x1_S850000x128_0_1
      (xw (F := Ideal) x0 x2) (factor (F := Ideal) x1) _ _ _ _ hz n q
  rw [key, landing_colI, sum_landing_dstAll]
  simp only [colI_apply, wrapAll_apply, srcAll_left, srcAll_right, dstAll_left, dstAll_right, clamp_loop]
  rw [← add_assoc]
  rfl

end Cert.RefAggRead

end
-- ==== Proof.AggEq.lean ====
/-
  The two aggregations agree. The launch multiplies its aggregated feature table by the weights and adds the bias; the
  reference multiplies first and aggregates the products. Entry by entry both are sums over the given edges arriving at
  a node plus the node's own term, with the same rows read and the same factors (the two programs compute one degree),
  so the statement is the linearity of the contraction with a weight column (`Cert.AggLaw.agg_law`). That law holds
  on real numbers: the node features and the weights are real by the precondition, and a factor is the reciprocal
  square root of a count plus one, a nonnegative real.
-/
import proofs.«177523_j83915071030244_2_alg».proof.Proof.KerAggRead
import proofs.«177523_j83915071030244_2_alg».proof.Proof.RefAggRead
import proofs.«177523_j83915071030244_2_alg».proof.Proof.Spec
import Idealize.ShloMosaic.Lib.ValueLayout

noncomputable section

namespace Cert.AggEq

open Cert.AggLaw Idealize.ShloMosaic Idealize.ShloMosaic.ValueIdx
open scoped BigOperators

/-- The kernel program's adjustment of negative row numbers, entry by entry. -/
theorem wrapE_apply (v : IVec ⟨1, ![800000]⟩ 32) (i : Fin 800000) :
    Cert.KerAgg.wrapE (F := Ideal) v (ix1 i) = Cert.DegreeFactor.wrapWord 50000#32 (v (ix1 i)) := by
  unfold Cert.KerAgg.wrapE Cert.DegreeFactor.wrapWord
  rw [select_apply]
  show Scalar.select (IntOp.cmpi .slt (v (ix1 i)) (broadcastInDim Cert.KernelIdeal.S800000 ![] Cert.KernelIdeal.Gen.bcast_S_S800000 (constantI Cert.KernelIdeal.S_ 32 0#32) (ix1 i)))
    (IntOp.addi (v (ix1 i)) (broadcastInDim Cert.KernelIdeal.S800000 ![] Cert.KernelIdeal.Gen.bcast_S_S800000 (constantI Cert.KernelIdeal.S_ 32 50000#32) (ix1 i))) (v (ix1 i)) = _
  rw [bcast_scalar_apply, bcast_scalar_apply, constantI_apply, constantI_apply]

/-- Both programs read the same row for an edge's end. -/
theorem rowOf_eq (v : IVec ⟨1, ![800000]⟩ 32) (i : Fin 800000) :
    Cert.KerAggRead.rowOf v i = Cert.RefAggRead.rowW (v (ix1 i)) := by
  unfold Cert.KerAggRead.rowOf Cert.RefAggRead.rowW
  rw [wrapE_apply]

/-- Both programs compute one factor per node. -/
theorem factor_eq (x1 : IVec ⟨2, ![2, 800000]⟩ 32) (r : Fin 50000) :
    Cert.RefAgg.factor (F := Ideal) x1 (ix1 r) = Cert.KerAgg.kerFactor (F := Ideal) x1 (ix1 r) := by
  rw [Cert.RefAggRead.factor_apply, Cert.KerAggRead.kerFactor_apply]
  rfl

/-- A factor is a real number. -/
theorem factor_real (x1 : IVec ⟨2, ![2, 800000]⟩ 32) (r : Fin 50000) :
    ∃ s : ℝ, Cert.KerAgg.kerFactor (F := Ideal) x1 (ix1 r) = (s : EReal) := by
  obtain ⟨h0, htop⟩ := Cert.KerAggRead.kerFactor_good x1 r
  have hbot : Cert.KerAgg.kerFactor (F := Ideal) x1 (ix1 r) ≠ ⊥ := fun h => by rw [h] at h0; exact absurd h0 (by simp)
  exact ⟨_, (EReal.coe_toReal htop hbot).symm⟩

/-- A parameter vector as a one-row table reads the vector. -/
theorem kerRow_apply (v : FVec Ideal ⟨1, ![128]⟩ .f32) (k : Fin 128) :
    Cert.KerAgg.kerRow (F := Ideal) v (ix2 (0 : Fin 1) k) = v (ix1 k) :=
  shapeCast_a_1a_apply v Cert.KernelIdeal.Gen.shapeCasts_S128_S1x128 0 k

/-- THE TWO AGGREGATIONS AGREE at every node n and output column q, when the node features and the weights are real. -/
theorem agg_eq (x0 : FVec Ideal ⟨2, ![50000, 64]⟩ .f32) (x1 : IVec ⟨2, ![2, 800000]⟩ 32)
    (x2 : FVec Ideal ⟨2, ![64, 128]⟩ .f32) (x3 : FVec Ideal ⟨1, ![128]⟩ .f32)
    (hx0 : ∀ i, ∃ r : ℝ, x0 i = (r : EReal)) (hx2 : ∀ i, ∃ r : ℝ, x2 i = (r : EReal)) (n : Fin 50000) (q : Fin 128) :
    Cert.Spec.rowDot (Cert.KerAgg.kerAgg (F := Ideal) x0 x1) x2 n q + Cert.KerAgg.kerRow (F := Ideal) x3 (ix2 (0 : Fin 1) q)
      = Cert.RefAgg.refAgg (F := Ideal) x0 x1 x2 x3 (ix2 n q) := by
  choose xr hxr using hx0
  choose wr hwr using hx2
  choose sr hsr using factor_real x1
  rw [kerRow_apply, Cert.RefAggRead.refAgg_apply]
  refine congrArg (fun t : EReal => t + x3 (ix1 q)) ?_
  unfold Cert.Spec.rowDot
  simp only [Cert.KerAggRead.kerAgg_apply, Cert.RefAggRead.xw_apply, factor_eq, rowOf_eq, hxr, hwr, hsr]
  exact agg_law _ (fun i j => xr (ix2 (Cert.RefAggRead.rowW (Cert.KerAgg.kerSrc (F := Ideal) x1 (ix1 i))) j))
    (fun i => sr (Cert.RefAggRead.rowW (Cert.KerAgg.kerSrc (F := Ideal) x1 (ix1 i))))
    (fun i => sr (Cert.RefAggRead.rowW (Cert.KerAgg.kerDst (F := Ideal) x1 (ix1 i))))
    (fun j => xr (ix2 n j)) (sr n) (fun j => wr (ix2 j q))

end Cert.AggEq

end
-- ==== Proof.RefTailDef.lean ====
/-
  The reference's dense tail as a function of the aggregated table and the argument arrays, and the result buffer's
  contents as that function of the aggregation.

  Each row of the table `A` is normalised: the row sum divided by the word of 128 is the mean, the mean of the squared
  deviations is the variance, and the deviations are scaled by the reciprocal square root of the variance plus a small
  word, then by one row vector, and shifted by another. A residual — the node features times a second weight matrix plus a
  bias row — is added, and the total `y` leaves multiplied by `1 / (1 + e^(−y))`.
-/
import proofs.«177523_j83915071030244_2_alg».proof.Proof.Gen.ReferenceIdeal

noncomputable section

namespace Cert.RefTerm

open Cert.ReferenceIdeal Cert.ReferenceIdeal.Gen Idealize.ShloMosaic Idealize.SL.Sem

variable {F : FTy → Type} [FloatOps F]

/-- The sum of every row, from the zero word. -/
def rowSums (X : (⟨S50000x128, .f32⟩ : BufTy).Contents (Elt F)) : (⟨S50000, .f32⟩ : BufTy).Contents (Elt F) :=
  Host.reduceAdd X (constant (F := F) S_ .f32 0x00000000#32) reducesTo_S50000x128_S50000_d1 h_S_

/-- The mean of every row as a column: the row sums over the word of 128. -/
def meanCol (X : (⟨S50000x128, .f32⟩ : BufTy).Contents (Elt F)) : (⟨S50000x1, .f32⟩ : BufTy).Contents (Elt F) :=
  Host.divf (broadcastInDim S50000x1 ![0] bcast_S50000_S50000x1_0 (rowSums X))
    (broadcastInDim S50000x1 ![] bcast_S_S50000x1 (constant (F := F) S_ .f32 0x43000000#32))

/-- A column laid over the 128 columns. -/
def spread (v : (⟨S50000x1, .f32⟩ : BufTy).Contents (Elt F)) : (⟨S50000x128, .f32⟩ : BufTy).Contents (Elt F) :=
  broadcastInDim S50000x128 ![0, 1] bcast_S50000x1_S50000x128_0_1 v

/-- Every entry's deviation from its row's mean. -/
def centred (A : (⟨S50000x128, .f32⟩ : BufTy).Contents (Elt F)) : (⟨S50000x128, .f32⟩ : BufTy).Contents (Elt F) :=
  subf A (spread (meanCol A))

/-- The variance of every row as a column. -/
def varCol (A : (⟨S50000x128, .f32⟩ : BufTy).Contents (Elt F)) : (⟨S50000x1, .f32⟩ : BufTy).Contents (Elt F) :=
  meanCol (mulf (centred A) (centred A))

/-- The reciprocal square root of the variance plus the small word, as a column. -/
def invStd (A : (⟨S50000x128, .f32⟩ : BufTy).Contents (Elt F)) : (⟨S50000x1, .f32⟩ : BufTy).Contents (Elt F) :=
  Host.rsqrt (addf (varCol A) (broadcastInDim S50000x1 ![] bcast_S_S50000x1 (constant (F := F) S_ .f32 0x3727C5AC#32)))

/-- A vector of 128 entries laid along every row. -/
def rowVec (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The normalised table, scaled and shifted. -/
def normed (A : (⟨S50000x128, .f32⟩ : BufTy).Contents (Elt F)) (x4 x5 : (⟨S128, .f32⟩ : BufTy).Contents (Elt F)) : (⟨S50000x128, .f32⟩ : BufTy).Contents (Elt F) :=
  addf (mulf (mulf (centred A) (spread (invStd A))) (rowVec x4)) (rowVec x5)

/-- The residual: the node features times the second weight matrix plus its bias row. -/
def resid (x0 : (⟨S50000x64, .f32⟩ : BufTy).Contents (Elt F)) (x6 : (⟨S64x128, .f32⟩ : BufTy).Contents (Elt F)) (x7 : (⟨S128, .f32⟩ : BufTy).Contents (Elt F)) : (⟨S50000x128, .f32⟩ : BufTy).Contents (Elt F) :=
  addf (Host.dotGeneral dot_S50000x64_S64x128_S50000x128_1_0_0_1_n_n none x0 x6) (rowVec x7)

/-- The sum that is gated. -/
def pre (A : (⟨S50000x128, .f32⟩ : BufTy).Contents (Elt F)) (x0 : (⟨S50000x64, .f32⟩ : BufTy).Contents (Elt F)) (x4 x5 : (⟨S128, .f32⟩ : BufTy).Contents (Elt F)) (x6 : (⟨S64x128, .f32⟩ : BufTy).Contents (Elt F)) (x7 : (⟨S128, .f32⟩ : BufTy).Contents (Elt F)) :
    (⟨S50000x128, .f32⟩ : BufTy).Contents (Elt F) :=
  addf (normed A x4 x5) (resid x0 x6 x7)

/-- The word of one at every entry. -/
def oneT : (⟨S50000x128, .f32⟩ : BufTy).Contents (Elt F) :=
  broadcastInDim S50000x128 ![] bcast_S_S50000x128 (constant (F := F) S_ .f32 0x3F800000#32)

/-- The gate `1 / (1 + e^(−y))` at every entry. -/
def gate (y : (⟨S50000x128, .f32⟩ : BufTy).Contents (Elt F)) : (⟨S50000x128, .f32⟩ : BufTy).Contents (Elt F) :=
  Host.divf (oneT (F := F)) (addf (oneT (F := F)) (Host.exp (Host.negf y)))

/-- The result table from the aggregated table `A` and the argument arrays. -/
def refTail (A : (⟨S50000x128, .f32⟩ : BufTy).Contents (Elt F)) (x0 : (⟨S50000x64, .f32⟩ : BufTy).Contents (Elt F)) (x4 x5 : (⟨S128, .f32⟩ : BufTy).Contents (Elt F)) (x6 : (⟨S64x128, .f32⟩ : BufTy).Contents (Elt F)) (x7 : (⟨S128, .f32⟩ : BufTy).Contents (Elt F)) :
    (⟨S50000x128, .f32⟩ : BufTy).Contents (Elt F) :=
  mulf (pre A x0 x4 x5 x6 x7) (gate (pre A x0 x4 x5 x6 x7))

end Cert.RefTerm

end
-- ==== Proof.RefTail.lean ====
/-
  The reference's dense tail read at an entry, at the ideal values: entry `(n, q)` of the result is the row function of
  the specification applied to row `n` of the aggregated table, the scale and shift vectors, and the residual row.

  The steps, each a small lemma over a table with explicit coordinates: a row's sum; its mean as a column; a column laid
  back over the columns; the deviation from the mean; the variance; the reciprocal square root of the variance plus the
  small word; a vector laid along every row; the normalised, scaled and shifted entry; the residual entry as a sum over
  the 64 features plus the bias; and the gate, which is the logistic function by its definition.
-/
import proofs.«177523_j83915071030244_2_alg».proof.Proof.RefTailDef
import proofs.«177523_j83915071030244_2_alg».proof.Proof.Spec
import proofs.«177523_j83915071030244_2_alg».proof.Proof.LibDenseRows
import proofs.«177523_j83915071030244_2_alg».proof.Proof.LibRowLift
import Idealize.ShloMosaic.Lib.IdealHost

noncomputable section

namespace Cert.RefTail

open Cert.ReferenceIdeal Cert.ReferenceIdeal.Gen Idealize.ShloMosaic Idealize.ShloMosaic.ValueIdx Idealize.SL.Sem
open Cert.RefTerm Cert.Spec
open scoped BigOperators

/-- Dropping the columns of `[50000, 128]` leaves `[50000]`. -/
theorem reduces_rows : (⟨2, ![50000, 128]⟩ : Shape).Reduces [(1 : Fin 2)] ⟨1, ![50000]⟩ := by decide

/-- A row's sum from the zero word is the sum of its 128 entries. -/
theorem rowSums_apply (X : FVec Ideal ⟨2, ![50000, 128]⟩ .f32) (n : Fin 50000) :
    rowSums (F := Ideal) X (ix1 n) = ∑ k : Fin 128, X (ix2 n k) := by
  unfold rowSums
  refine (Cert.DenseRows.hostRowSum_apply X (constant (F := Ideal) S_ .f32 0x00000000#32) reducesTo_S50000x128_S50000_d1 h_S_
    reduces_rows (Cert.RowLift.lift_row reduces_rows) n).trans ?_
  rw [constant_apply, Ideal.ofBits_zero_f32, zero_add]

/-- The column of means holds, at row `n`, the mean of row `n`. -/
theorem meanCol_apply (X : FVec Ideal ⟨2, ![50000, 128]⟩ .f32) (n : Fin 50000) (u : Fin 1) :
    meanCol (F := Ideal) X (ix2 n u) = rowMean fun k => X (ix2 n k) := by
  unfold meanCol rowMean c128
  refine (hostDivf_apply _ _ _).trans ?_
  rw [Cert.DenseRows.broadcastInDim_a_a1_apply _ bcast_S50000_S50000x1_0 n u, rowSums_apply,
    broadcastInDim_scalar_apply bcast_S_S50000x1, constant_apply]

/-- A column laid over the columns reads, at `(n, q)`, the column at row `n`. -/
theorem spread_apply (v : FVec Ideal ⟨2, ![50000, 1]⟩ .f32) (n : Fin 50000) (q : Fin 128) :
    spread (F := Ideal) v (ix2 n q) = v (ix2 n (0 : Fin 1)) :=
  Cert.DenseRows.broadcastInDim_a1_ab_apply v bcast_S50000x1_S50000x128_0_1 n q

/-- An entry's deviation from its row's mean. -/
theorem centred_apply (A : FVec Ideal ⟨2, ![50000, 128]⟩ .f32) (n : Fin 50000) (q : Fin 128) :
    centred (F := Ideal) A (ix2 n q) = A (ix2 n q) - rowMean fun k => A (ix2 n k) := by
  unfold centred
  rw [subf_apply, spread_apply, meanCol_apply]

/-- The column of variances holds, at row `n`, the variance of row `n`. -/
theorem varCol_apply (A : FVec Ideal ⟨2, ![50000, 128]⟩ .f32) (n : Fin 50000) (u : Fin 1) :
    varCol (F := Ideal) A (ix2 n u) = rowVar fun k => A (ix2 n k) := by
  unfold varCol rowVar
  rw [meanCol_apply]
  refine congrArg rowMean (funext fun k => ?_)
  rw [mulf_apply, centred_apply]

/-- The reciprocal square root of a row's variance plus the small word. -/
theorem invStd_apply (A : FVec Ideal ⟨2, ![50000, 128]⟩ .f32) (n : Fin 50000) (u : Fin 1) :
    invStd (F := Ideal) A (ix2 n u) = Ideal.rsqrt ((rowVar fun k => A (ix2 n k)) + eps) := by
  unfold invStd eps
  show Ideal.rsqrt (addf (varCol (F := Ideal) A)
    (broadcastInDim S50000x1 ![] bcast_S_S50000x1 (constant (F := Ideal) S_ .f32 0x3727C5AC#32)) (ix2 n u)) = _
  rw [addf_apply, varCol_apply, broadcastInDim_scalar_apply bcast_S_S50000x1, constant_apply]

/-- A vector laid along every row reads, at `(n, q)`, the vector at `q`. -/
theorem rowVec_apply (v : FVec Ideal ⟨1, ![128]⟩ .f32) (n : Fin 50000) (q : Fin 128) :
    rowVec (F := Ideal) v (ix2 n q) = v (ix1 q) :=
  Cert.DenseRows.rowBias_inDim_apply v bcast_S128_S1x128_1 bcast_S1x128_S50000x128_0_1 n q

/-- The normalised, scaled and shifted entry. -/
theorem normed_apply (A : FVec Ideal ⟨2, ![50000, 128]⟩ .f32) (x4 x5 : FVec Ideal ⟨1, ![128]⟩ .f32) (n : Fin 50000) (q : Fin 128) :
    normed (F := Ideal) A x4 x5 (ix2 n q)
      = (A (ix2 n q) - rowMean fun k => A (ix2 n k)) * Ideal.rsqrt ((rowVar fun k => A (ix2 n k)) + eps) * x4 (ix1 q)
        + x5 (ix1 q) := by
  unfold normed
  rw [addf_apply, mulf_apply, mulf_apply, centred_apply, spread_apply, invStd_apply, rowVec_apply, rowVec_apply]

theorem dot_rank : (dot_S50000x64_S64x128_S50000x128_1_0_0_1_n_n).contr.rank = 1 := (dot_S50000x64_S64x128_S50000x128_1_0_0_1_n_n).rank_contr.trans rfl

theorem dot_size : (dot_S50000x64_S64x128_S50000x128_1_0_0_1_n_n).contr.size ⟨0, by rw [dot_rank]; exact Nat.one_pos⟩ = 64 :=
  ((dot_S50000x64_S64x128_S50000x128_1_0_0_1_n_n).size_contr 0 Nat.one_pos).trans rfl

theorem dot_l0 (j : S50000x128.Idx) (k : (dot_S50000x64_S64x128_S50000x128_1_0_0_1_n_n).contr.Idx) :
    ((dot_S50000x64_S64x128_S50000x128_1_0_0_1_n_n).lhsIdx j k (0 : Fin 2)).val = (j (0 : Fin 2)).val := rfl

theorem dot_r1 (j : S50000x128.Idx) (k : (dot_S50000x64_S64x128_S50000x128_1_0_0_1_n_n).contr.Idx) :
    ((dot_S50000x64_S64x128_S50000x128_1_0_0_1_n_n).rhsIdx j k (1 : Fin 2)).val = (j (1 : Fin 2)).val := rfl

/-- The residual entry: row `n` of the features against column `q` of the weights, plus the bias at `q`. -/
theorem resid_apply (x0 : FVec Ideal ⟨2, ![50000, 64]⟩ .f32) (x6 : FVec Ideal ⟨2, ![64, 128]⟩ .f32) (x7 : FVec Ideal ⟨1, ![128]⟩ .f32) (n : Fin 50000) (q : Fin 128) :
    resid (F := Ideal) x0 x6 x7 (ix2 n q) = rowDot x0 x6 n q + x7 (ix1 q) := by
  unfold resid rowDot
  rw [addf_apply, rowVec_apply]
  exact congrArg (· + x7 (ix1 q))
    (Cert.DenseRows.dotGeneral_plain_apply dot_S50000x64_S64x128_S50000x128_1_0_0_1_n_n rfl rfl dot_rank dot_size dot_l0 dot_r1 x0 x6 n q)

/-- The sum that is gated, at an entry. -/
theorem pre_apply (A : FVec Ideal ⟨2, ![50000, 128]⟩ .f32) (x0 : FVec Ideal ⟨2, ![50000, 64]⟩ .f32) (x4 x5 : FVec Ideal ⟨1, ![128]⟩ .f32) (x6 : FVec Ideal ⟨2, ![64, 128]⟩ .f32) (x7 : FVec Ideal ⟨1, ![128]⟩ .f32) (n : Fin 50000) (q : Fin 128) :
    pre (F := Ideal) A x0 x4 x5 x6 x7 (ix2 n q)
      = rowPre (fun k => A (ix2 n k)) (fun k => x4 (ix1 k)) (fun k => x5 (ix1 k)) (fun k => rowDot x0 x6 n k + x7 (ix1 k)) q := by
  unfold pre rowPre
  rw [addf_apply, normed_apply, resid_apply]

/-- The word of one at every entry is one. -/
theorem oneT_apply (i : S50000x128.Idx) : oneT (F := Ideal) i = 1 := by
  unfold oneT
  rw [broadcastInDim_scalar_apply bcast_S_S50000x128, constant_apply, Ideal.ofBits_one_f32]

/-- The gate at an entry is the logistic function of the entry. -/
theorem gate_apply (y : FVec Ideal ⟨2, ![50000, 128]⟩ .f32) (i : S50000x128.Idx) : gate (F := Ideal) y i = Ideal.logistic (y i) := by
  unfold gate
  show Ideal.div (oneT (F := Ideal) i) (oneT (F := Ideal) i + Ideal.exp (-(y i))) = _
  rw [oneT_apply]
  rfl

/-- Entry `(n, q)` of the dense tail is the specification's row function of row `n`. -/
theorem refTail_apply (A : (⟨S50000x128, .f32⟩ : BufTy).Contents (Elt Ideal)) (x0 : (⟨S50000x64, .f32⟩ : BufTy).Contents (Elt Ideal))
    (x4 x5 : (⟨S128, .f32⟩ : BufTy).Contents (Elt Ideal)) (x6 : (⟨S64x128, .f32⟩ : BufTy).Contents (Elt Ideal))
    (x7 : (⟨S128, .f32⟩ : BufTy).Contents (Elt Ideal)) (n : Fin 50000) (q : Fin 128) :
    refTail (F := Ideal) A x0 x4 x5 x6 x7 (ix2 n q)
      = Cert.Spec.rowOut (fun k => A (ix2 n k)) (fun k => x4 (ix1 k)) (fun k => x5 (ix1 k))
          (fun k => Cert.Spec.rowDot x0 x6 n k + x7 (ix1 k)) q := by
  unfold refTail rowOut
  rw [mulf_apply, gate_apply, pre_apply]

end Cert.RefTail

end
-- ==== Proof.Bridge.lean ====
/-
  The two results are one table. The launch's result is the row function of (aggregated features · weights + bias);
  the reference's is the same row function of its own aggregated table. The two aggregated operands agree entry by
  entry (`Cert.AggEq.agg_eq`, which is where the precondition is used), the four parameter rows are the parameter
  vectors, and the residual operand is literally the same sum, so the row function is applied to equal rows.
-/
import proofs.«177523_j83915071030244_2_alg».proof.Proof.AggEq
import proofs.«177523_j83915071030244_2_alg».proof.Proof.RefTail

noncomputable section

namespace Cert.Bridge

open Idealize.ShloMosaic Idealize.ShloMosaic.ValueIdx
open scoped BigOperators

/-- The launch's result table, written over the argument arrays, is the reference's. -/
theorem dense_bridge (a0 : FVec Ideal ⟨2, ![50000, 64]⟩ .f32) (a1 : IVec ⟨2, ![2, 800000]⟩ 32)
    (a2 : FVec Ideal ⟨2, ![64, 128]⟩ .f32) (a3 a4 a5 : FVec Ideal ⟨1, ![128]⟩ .f32) (a6 : FVec Ideal ⟨2, ![64, 128]⟩ .f32)
    (a7 : FVec Ideal ⟨1, ![128]⟩ .f32)
    (hx0 : ∀ i, ∃ r : ℝ, a0 i = (r : EReal)) (hx2 : ∀ i, ∃ r : ℝ, a2 i = (r : EReal)) :
    Cert.Spec.denseOut (Cert.KerAgg.kerAgg (F := Ideal) a0 a1) a0 a2 a6 (Cert.KerAgg.kerRow (F := Ideal) a3)
        (Cert.KerAgg.kerRow (F := Ideal) a4) (Cert.KerAgg.kerRow (F := Ideal) a5) (Cert.KerAgg.kerRow (F := Ideal) a7)
      = Cert.RefTerm.refTail (F := Ideal) (Cert.RefAgg.refAgg (F := Ideal) a0 a1 a2 a3) a0 a4 a5 a6 a7 := by
  funext i
  obtain ⟨n, q, rfl⟩ : ∃ (n : Fin 50000) (q : Fin 128), i = ix2 n q := ⟨i 0, i 1, eq_ix2 i⟩
  rw [Cert.RefTail.refTail_apply]
  have ha : (fun k : Fin 128 => Cert.Spec.rowDot (Cert.KerAgg.kerAgg (F := Ideal) a0 a1) a2 n k
        + Cert.KerAgg.kerRow (F := Ideal) a3 (ix2 (0 : Fin 1) k))
      = fun k : Fin 128 => Cert.RefAgg.refAgg (F := Ideal) a0 a1 a2 a3 (ix2 n k) :=
    funext fun k => Cert.AggEq.agg_eq a0 a1 a2 a3 hx0 hx2 n k
  have hw : (fun k : Fin 128 => Cert.KerAgg.kerRow (F := Ideal) a4 (ix2 (0 : Fin 1) k)) = fun k : Fin 128 => a4 (ix1 k) :=
    funext fun k => Cert.AggEq.kerRow_apply a4 k
  have hβ : (fun k : Fin 128 => Cert.KerAgg.kerRow (F := Ideal) a5 (ix2 (0 : Fin 1) k)) = fun k : Fin 128 => a5 (ix1 k) :=
    funext fun k => Cert.AggEq.kerRow_apply a5 k
  have hr : (fun k : Fin 128 => Cert.Spec.rowDot a0 a6 n k + Cert.KerAgg.kerRow (F := Ideal) a7 (ix2 (0 : Fin 1) k))
      = fun k : Fin 128 => Cert.Spec.rowDot a0 a6 n k + a7 (ix1 k) :=
    funext fun k => congrArg (fun t : EReal => Cert.Spec.rowDot a0 a6 n k + t) (Cert.AggEq.kerRow_apply a7 k)
  show Cert.Spec.rowOut (fun k : Fin 128 => Cert.Spec.rowDot (Cert.KerAgg.kerAgg (F := Ideal) a0 a1) a2 n k
        + Cert.KerAgg.kerRow (F := Ideal) a3 (ix2 (0 : Fin 1) k))
      (fun k : Fin 128 => Cert.KerAgg.kerRow (F := Ideal) a4 (ix2 (0 : Fin 1) k))
      (fun k : Fin 128 => Cert.KerAgg.kerRow (F := Ideal) a5 (ix2 (0 : Fin 1) k))
      (fun k : Fin 128 => Cert.Spec.rowDot a0 a6 n k + Cert.KerAgg.kerRow (F := Ideal) a7 (ix2 (0 : Fin 1) k)) q = _
  rw [ha, hw, hβ, hr]

end Cert.Bridge

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.Finite.lean ====
/-
  The precondition read back. It is the conjunction, over the seven float inputs, of "every element has absolute value
  below +∞"; when it is 1 each conjunct is 1, and a conjunct that is 1 says its input's elements are real numbers. The
  law that joins the two programs needs this of two inputs only: the node features and the first weight matrix.
-/
import proofs.«177523_j83915071030244_2_alg».proof.Pre_finite_inputs
import proofs.«177523_j83915071030244_2_alg».proof.Proof.Gen.Pre_finite_inputs
import proofs.«177523_j83915071030244_2_alg».proof.Proof.LibFiniteInputs
import proofs.«177523_j83915071030244_2_alg».proof.Proof.LibAggLaw
import Idealize.ShloMosaic.Lib.Affine

noncomputable section

namespace Cert.Finite

open Cert.Pre_finite_inputs Cert.Pre_finite_inputs.Gen Idealize.ShloMosaic

instance : Subsingleton S_.Idx := ⟨fun a b => funext fun d => d.elim0⟩

/-- The +∞ constant laid over an array reads ⊤ everywhere. -/
theorem top_apply {s : Shape} (h : S_.BroadcastsInDim s (![] : Fin 0 → Fin s.rank)) (i : s.Idx) :
    (broadcastInDim s ![] h (constant (F := Ideal) S_ .f32 0x7F800000#32)) i = ⊤ := by
  rw [Cert.AggLaw.bcast_scalar_apply, ValueIdx.constant_apply]
  exact Cert.FiniteInputs.ofBits_f32_inf

/-- Under the precondition the node features and the first weight matrix hold real numbers. -/
theorem reals_of_pre (a0 : FVec Ideal S50000x64 .f32) (a1 : IVec S2x800000 32) (a2 : FVec Ideal S64x128 .f32)
    (a3 a4 a5 : FVec Ideal S128 .f32) (a6 : FVec Ideal S64x128 .f32) (a7 : FVec Ideal S128 .f32)
    (h : fn (F := Ideal) a0 a1 a2 a3 a4 a5 a6 a7 = fun _ => 1#1) :
    (∀ i, ∃ r : ℝ, a0 i = (r : EReal)) ∧ (∀ i, ∃ r : ℝ, a2 i = (r : EReal)) := by
  have h0 := congrFun h ValueIdx.ix0
  dsimp only [fn, fn_part1] at h0
  obtain ⟨h28, -⟩ := IntOp.andi_eq_one.mp h0
  obtain ⟨h23, -⟩ := IntOp.andi_eq_one.mp h28
  obtain ⟨h18, -⟩ := IntOp.andi_eq_one.mp h23
  obtain ⟨h13, -⟩ := IntOp.andi_eq_one.mp h18
  obtain ⟨h8, -⟩ := IntOp.andi_eq_one.mp h13
  obtain ⟨h3, h7⟩ := IntOp.andi_eq_one.mp h8
  exact ⟨fun i => Cert.FiniteInputs.all_real_of_all_finite a0 _ (top_apply _) _ _ _ _ h3 i,
    fun i => Cert.FiniteInputs.all_real_of_all_finite a2 _ (top_apply _) _ _ _ _ h7 i⟩

end Cert.Finite

end
-- ==== Proof.RefRun.lean ====
/-
  The reference program's straight line of host operations and its run: every weakly fair execution terminates with the
  result buffer at the fold of the operations over the launch contents, the eight arguments unchanged. The outlined
  select (the three operations of the called function) stands in the call's place over the call's own buffers.
-/
import proofs.«177523_j83915071030244_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference as a list: its 106 host operations in program order, the called function's three standing where the call is. -/
abbrev ops : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v10 main_v13 main_v14 (maximumf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    nullary main_cst_3 (constant S_ .f32 0x00000000#32),
    TRef.unary (.of main_cst_3) main_call0.v0 id,
    TRef.unary main_call0.v0 main_call0.v1 (broadcastInDim S50000 ![] bcast_S_S50000),
    TRef.ternary (.of main_v12) (.of main_v15) main_call0.v1 main_call0.v2 select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_5 (constantI S_ 32 0#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    binary main_arg0 main_arg2 main_v32 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    nullary main_c_7 (constantI S_ 32 0#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (cmpi .slt : (⟨S850000, .i32⟩ : BufTy).Contents (Elt F) → (⟨S850000, .i32⟩ : BufTy).Contents (Elt F) → (⟨S850000, .i1⟩ : BufTy).Contents (Elt F)),
    nullary main_c_8 (constantI S_ 32 50000#32),
    unary main_c_8 main_v35 (broadcastInDim S850000 ![] bcast_S_S850000 : (⟨S_, .i32⟩ : BufTy).Contents (Elt F) → (⟨S850000, .i32⟩ : BufTy).Contents (Elt F)),
    binary main_v3 main_v35 main_v36 (addi : (⟨S850000, .i32⟩ : BufTy).Contents (Elt F) → (⟨S850000, .i32⟩ : BufTy).Contents (Elt F) → (⟨S850000, .i32⟩ : BufTy).Contents (Elt F)),
    ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v37 main_v38 (broadcastInDim S850000x1 ![0] bcast_S850000_S850000x1_0 : (⟨S850000, .i32⟩ : BufTy).Contents (Elt F) → (⟨S850000x1, .i32⟩ : BufTy).Contents (Elt F)),
    binary main_v32 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v40 (broadcastInDim S850000x1 ![0] bcast_S850000_S850000x1_0 : (⟨S850000, .f32⟩ : BufTy).Contents (Elt F) → (⟨S850000x1, .f32⟩ : BufTy).Contents (Elt F)),
    unary main_v40 main_v41 (broadcastInDim S850000x128 ![0, 1] bcast_S850000x1_S850000x128_0_1 : (⟨S850000x1, .f32⟩ : BufTy).Contents (Elt F) → (⟨S850000x128, .f32⟩ : BufTy).Contents (Elt F)),
    binary main_v39 main_v41 main_v42 (mulf : (⟨S850000x128, .f32⟩ : BufTy).Contents (Elt F) → (⟨S850000x128, .f32⟩ : BufTy).Contents (Elt F) → (⟨S850000x128, .f32⟩ : BufTy).Contents (Elt F)),
    nullary main_cst_9 (constant S_ .f32 0x00000000#32),
    unary main_cst_9 main_v43 (broadcastInDim S50000x128 ![] bcast_S_S50000x128 : (⟨S_, .f32⟩ : BufTy).Contents (Elt F) → (⟨S50000x128, .f32⟩ : BufTy).Contents (Elt F)),
    unary main_v6 main_v44 (broadcastInDim S850000x1 ![0] bcast_S850000_S850000x1_0 : (⟨S850000, .i32⟩ : BufTy).Contents (Elt F) → (⟨S850000x1, .i32⟩ : BufTy).Contents (Elt F)),
    ternary main_v43 main_v44 main_v42 main_v45 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S50000x128 ![0, 1] bcast_S1x128_S50000x128_0_1 : (⟨S1x128, .f32⟩ : BufTy).Contents (Elt F) → (⟨S50000x128, .f32⟩ : BufTy).Contents (Elt F)),
    binary main_v45 main_v47 main_v48 (addf : (⟨S50000x128, .f32⟩ : BufTy).Contents (Elt F) → (⟨S50000x128, .f32⟩ : BufTy).Contents (Elt F) → (⟨S50000x128, .f32⟩ : BufTy).Contents (Elt F)),
    nullary main_cst_10 (constant S_ .f32 0x00000000#32),
    binary main_v48 main_cst_10 main_v49 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43000000#32),
    unary main_cst_11 main_v51 (broadcastInDim S50000x1 ![] bcast_S_S50000x1 : (⟨S_, .f32⟩ : BufTy).Contents (Elt F) → (⟨S50000x1, .f32⟩ : BufTy).Contents (Elt F)),
    binary main_v50 main_v51 main_v52 (Host.divf : (⟨S50000x1, .f32⟩ : BufTy).Contents (Elt F) → (⟨S50000x1, .f32⟩ : BufTy).Contents (Elt F) → (⟨S50000x1, .f32⟩ : BufTy).Contents (Elt F)),
    unary main_v52 main_v53 (broadcastInDim S50000x128 ![0, 1] bcast_S50000x1_S50000x128_0_1 : (⟨S50000x1, .f32⟩ : BufTy).Contents (Elt F) → (⟨S50000x128, .f32⟩ : BufTy).Contents (Elt F)),
    binary main_v48 main_v53 main_v54 (subf : (⟨S50000x128, .f32⟩ : BufTy).Contents (Elt F) → (⟨S50000x128, .f32⟩ : BufTy).Contents (Elt F) → (⟨S50000x128, .f32⟩ : BufTy).Contents (Elt F)),
    binary main_v54 main_v54 main_v55 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v55 main_cst_12 main_v56 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v56 main_v57 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43000000#32),
    unary main_cst_13 main_v58 (broadcastInDim S50000x1 ![] bcast_S_S50000x1 : (⟨S_, .f32⟩ : BufTy).Contents (Elt F) → (⟨S50000x1, .f32⟩ : BufTy).Contents (Elt F)),
    binary main_v57 main_v58 main_v59 (Host.divf : (⟨S50000x1, .f32⟩ : BufTy).Contents (Elt F) → (⟨S50000x1, .f32⟩ : BufTy).Contents (Elt F) → (⟨S50000x1, .f32⟩ : BufTy).Contents (Elt F)),
    unary main_v52 main_v60 (broadcastInDim S50000x128 ![0, 1] bcast_S50000x1_S50000x128_0_1 : (⟨S50000x1, .f32⟩ : BufTy).Contents (Elt F) → (⟨S50000x128, .f32⟩ : BufTy).Contents (Elt F)),
    binary main_v48 main_v60 main_v61 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v62 (broadcastInDim S50000x1 ![] bcast_S_S50000x1 : (⟨S_, .f32⟩ : BufTy).Contents (Elt F) → (⟨S50000x1, .f32⟩ : BufTy).Contents (Elt F)),
    binary main_v59 main_v62 main_v63 (addf : (⟨S50000x1, .f32⟩ : BufTy).Contents (Elt F) → (⟨S50000x1, .f32⟩ : BufTy).Contents (Elt F) → (⟨S50000x1, .f32⟩ : BufTy).Contents (Elt F)),
    unary main_v63 main_v64 (Host.rsqrt : (⟨S50000x1, .f32⟩ : BufTy).Contents (Elt F) → (⟨S50000x1, .f32⟩ : BufTy).Contents (Elt F)),
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v61 main_v65 main_v66 (mulf : (⟨S50000x128, .f32⟩ : BufTy).Contents (Elt F) → (⟨S50000x128, .f32⟩ : BufTy).Contents (Elt F) → (⟨S50000x128, .f32⟩ : BufTy).Contents (Elt F)),
    unary main_arg4 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (mulf : (⟨S50000x128, .f32⟩ : BufTy).Contents (Elt F) → (⟨S50000x128, .f32⟩ : BufTy).Contents (Elt F) → (⟨S50000x128, .f32⟩ : BufTy).Contents (Elt F)),
    unary main_arg5 main_v70 (broadcastInDim S1x128 ![1] bcast_S128_S1x128_1 : (⟨S128, .f32⟩ : BufTy).Contents (Elt F) → (⟨S1x128, .f32⟩ : BufTy).Contents (Elt F)),
    unary main_v70 main_v71 (broadcastInDim S50000x128 ![0, 1] bcast_S1x128_S50000x128_0_1 : (⟨S1x128, .f32⟩ : BufTy).Contents (Elt F) → (⟨S50000x128, .f32⟩ : BufTy).Contents (Elt F)),
    binary main_v69 main_v71 main_v72 (addf : (⟨S50000x128, .f32⟩ : BufTy).Contents (Elt F) → (⟨S50000x128, .f32⟩ : BufTy).Contents (Elt F) → (⟨S50000x128, .f32⟩ : BufTy).Contents (Elt F)),
    binary main_arg0 main_arg6 main_v73 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    unary main_arg7 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    binary main_v72 main_v76 main_v77 (addf : (⟨S50000x128, .f32⟩ : BufTy).Contents (Elt F) → (⟨S50000x128, .f32⟩ : BufTy).Contents (Elt F) → (⟨S50000x128, .f32⟩ : BufTy).Contents (Elt F)),
    unary main_v77 main_v78 (Host.negf : (⟨S50000x128, .f32⟩ : BufTy).Contents (Elt F) → (⟨S50000x128, .f32⟩ : BufTy).Contents (Elt F)),
    unary main_v78 main_v79 (Host.exp : (⟨S50000x128, .f32⟩ : BufTy).Contents (Elt F) → (⟨S50000x128, .f32⟩ : BufTy).Contents (Elt F)),
    nullary main_cst_15 (constant S_ .f32 0x3F800000#32),
    unary main_cst_15 main_v80 (broadcastInDim S50000x128 ![] bcast_S_S50000x128 : (⟨S_, .f32⟩ : BufTy).Contents (Elt F) → (⟨S50000x128, .f32⟩ : BufTy).Contents (Elt F)),
    binary main_v80 main_v79 main_v81 (addf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x3F800000#32),
    unary main_cst_16 main_v82 (broadcastInDim S50000x128 ![] bcast_S_S50000x128 : (⟨S_, .f32⟩ : BufTy).Contents (Elt F) → (⟨S50000x128, .f32⟩ : BufTy).Contents (Elt F)),
    binary main_v82 main_v81 main_v83 (Host.divf : (⟨S50000x128, .f32⟩ : BufTy).Contents (Elt F) → (⟨S50000x128, .f32⟩ : BufTy).Contents (Elt F) → (⟨S50000x128, .f32⟩ : BufTy).Contents (Elt F)),
    binary main_v77 main_v83 main_v84 (mulf : (⟨S50000x128, .f32⟩ : BufTy).Contents (Elt F) → (⟨S50000x128, .f32⟩ : BufTy).Contents (Elt F) → (⟨S50000x128, .f32⟩ : BufTy).Contents (Elt F)) ]

set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub ..⟩

set_option maxHeartbeats 40000000 in
/-- No operation writes argument 0. -/
theorem arg0_eq (V : Valuation τ sig (Elt F)) :
    after (ops (F := F)) V (Proc.devRef .tc main_arg0) = V (Proc.devRef .tc main_arg0) := by
  after_results_simp

set_option maxHeartbeats 40000000 in
/-- No operation writes argument 1. -/
theorem arg1_eq (V : Valuation τ sig (Elt F)) :
    after (ops (F := F)) V (Proc.devRef .tc main_arg1) = V (Proc.devRef .tc main_arg1) := by
  after_results_simp

set_option maxHeartbeats 40000000 in
/-- No operation writes argument 2. -/
theorem arg2_eq (V : Valuation τ sig (Elt F)) :
    after (ops (F := F)) V (Proc.devRef .tc main_arg2) = V (Proc.devRef .tc main_arg2) := by
  after_results_simp

set_option maxHeartbeats 40000000 in
/-- No operation writes argument 3. -/
theorem arg3_eq (V : Valuation τ sig (Elt F)) :
    after (ops (F := F)) V (Proc.devRef .tc main_arg3) = V (Proc.devRef .tc main_arg3) := by
  after_results_simp

set_option maxHeartbeats 40000000 in
/-- No operation writes argument 4. -/
theorem arg4_eq (V : Valuation τ sig (Elt F)) :
    after (ops (F := F)) V (Proc.devRef .tc main_arg4) = V (Proc.devRef .tc main_arg4) := by
  after_results_simp

set_option maxHeartbeats 40000000 in
/-- No operation writes argument 5. -/
theorem arg5_eq (V : Valuation τ sig (Elt F)) :
    after (ops (F := F)) V (Proc.devRef .tc main_arg5) = V (Proc.devRef .tc main_arg5) := by
  after_results_simp

set_option maxHeartbeats 40000000 in
/-- No operation writes argument 6. -/
theorem arg6_eq (V : Valuation τ sig (Elt F)) :
    after (ops (F := F)) V (Proc.devRef .tc main_arg6) = V (Proc.devRef .tc main_arg6) := by
  after_results_simp

set_option maxHeartbeats 40000000 in
/-- No operation writes argument 7. -/
theorem arg7_eq (V : Valuation τ sig (Elt F)) :
    after (ops (F := F)) V (Proc.devRef .tc main_arg7) = V (Proc.devRef .tc main_arg7) := by
  after_results_simp

/-- What the result buffer holds once the operations have run from the launch contents of device `c`. -/
def refOut (m : (ℓ : Loc nD τ sig) → Buf (Elt F) ℓ) (c : Dev nD) : (⟨S50000x128, .f32⟩ : BufTy).Contents (Elt F) :=
  after (ops (F := F)) (launchContents m c) (Proc.devRef .tc main_v84)

set_option maxHeartbeats 40000000 in
/-- Started from a memory whose counters are all zero, the reference always finishes under weak fairness, whatever the float
    values are; on each device the result buffer then holds `refOut` of the starting memory and none of the eight argument
    buffers has changed. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v84,
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ)

end Cert.RefRun

end
-- ==== Proof.RefTerm.lean ====
/-
  The result buffer of the reference's run is the dense tail applied to the aggregation of the launch contents of the
  arguments: the fold of the operations at the result buffer, evaluated operation by operation.
-/
import proofs.«177523_j83915071030244_2_alg».proof.Proof.RefRun
import proofs.«177523_j83915071030244_2_alg».proof.Proof.RefAggDef
import proofs.«177523_j83915071030244_2_alg».proof.Proof.RefTailDef

noncomputable section

namespace Cert.RefTerm

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The result buffer holds the dense tail of the aggregation of the launch contents of the arguments. -/
theorem refOut_eq (m : (ℓ : Loc nD τ sig) → Buf (Elt F) ℓ) (c : Dev nD) :
    Cert.RefRun.refOut (F := F) m c
      = refTail (Cert.RefAgg.refAgg (F := F) (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5))
          (m ((c.tc : Thread nD τ).loc main_arg6)) (m ((c.tc : Thread nD τ).loc main_arg7)) := by
  unfold Cert.RefRun.refOut
  after_results_simp
  rfl

end Cert.RefTerm

end
-- ==== Proof.lean ====
/-
  A residual graph-convolution block over 50000 nodes and 800000 edges: a degree-normalised neighbourhood sum, a dense
  map 64 → 128 with a bias, a normalisation of each node's 128 entries (mean, variance, scale, shift), a residual dense
  map of the node's own features, and the gate y · σ(y).

  The kernel program aggregates the 64-wide features first — for node n the sum, over the edges arriving at n, of the
  source's feature row times the factors f of the edge's two ends, plus f n² times n's own row — and its one launch
  multiplies the aggregated table by the weights, ten blocks of 5000 rows. The reference appends one loop per node to
  the edge list, multiplies the features by the weights first, and aggregates the 128-wide products over the longer
  list. With f n the reciprocal square root of (edges arriving at n) + 1 in both (the reference's guard `degree > 0` and
  its maximum with one never bite: a node's own loop makes its degree at least one), the two aggregated tables agree
  because the contraction with a weight column is linear — a statement about real numbers, which is where the
  precondition (finite inputs) is used, for the node features and the first weight matrix. Everything after the
  aggregated table is one and the same row function in both programs (`Cert.Spec.rowOut`), on all extended reals:
  format changes are the identity, the launch's matrix products into a zero accumulator are the reference's
  contractions, its lane sums the reference's row sums, and its gate operation is by definition 1 / (1 + e^(−y)).

  The modules: Spec (the row function and the result table), KerRow and KerArray (the launch's result is that table of
  the arrays it finds), KerAggDef, KerHost and KerAggRead (what it finds, and that read at an index), RefRun, RefTerm,
  RefTailDef and RefTail (the reference's run, its result as the row function of its aggregated table), RefAggDef and
  RefAggRead (that table read at an index), LibAggLaw and AggEq (the law, and the two tables' agreement), Finite (the
  precondition read back), Bridge (the two results are one table).
-/
import proofs.«177523_j83915071030244_2_alg».proof.Defs
import proofs.«177523_j83915071030244_2_alg».proof.Proof.Gen.Kernel
import proofs.«177523_j83915071030244_2_alg».proof.Proof.Gen.Kernel.Frame
import proofs.«177523_j83915071030244_2_alg».proof.Proof.Gen.KernelIdeal
import proofs.«177523_j83915071030244_2_alg».proof.Proof.Gen.KernelIdeal.Frame
import proofs.«177523_j83915071030244_2_alg».proof.Proof.Gen.KernelIdeal.Value
import proofs.«177523_j83915071030244_2_alg».proof.Proof.Gen.ReferenceIdeal
import proofs.«177523_j83915071030244_2_alg».proof.Proof.Gen.Pre_finite_inputs
import proofs.«177523_j83915071030244_2_alg».proof.Proof.KerArray
import proofs.«177523_j83915071030244_2_alg».proof.Proof.KerHost
import proofs.«177523_j83915071030244_2_alg».proof.Proof.Bridge
import proofs.«177523_j83915071030244_2_alg».proof.Proof.Finite
import proofs.«177523_j83915071030244_2_alg».proof.Proof.RefRun
import proofs.«177523_j83915071030244_2_alg».proof.Proof.RefTerm
import Idealize.ShloMosaic.Adequacy
import Idealize.ShloMosaic.Init

noncomputable section

namespace Cert.Proof

open Idealize.ShloMosaic Idealize.ShloMosaic.TcCoe Idealize.SL.Sem

/-- The printed kernel program runs, and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as they were: its run with the result forgotten. -/
theorem frame_ri : Cert.frame_ReferenceIdeal := fun m ρ _ =>
  (θ_run Cert.ReferenceIdeal.defs _ _).mono (fun _ h c => (h c).2) (Cert.RefRun.run (F := Ideal) m ρ)

/-- The reading on the extended reals rewrote no operation. -/
theorem preserves : Cert.preserves_Kernel_KernelIdeal := trivial

open Cert.KernelIdeal Cert.KernelIdeal.Gen in
/-- Under the precondition, the table the launch leaves — the specification's table of the arrays it finds — is the
    reference's result term of the same arguments. -/
theorem result_eq (m : (ℓ : Loc nD τ sig) → Buf (Elt Ideal) ℓ) (c : Dev nD) (hpre : Cert.Pre_KernelIdeal m) :
    Cert.Spec.denseOut (V m c main_v43) (V m c main_arg0) (V m c main_arg2) (V m c main_arg6) (V m c main_v44)
        (V m c main_v46) (V m c main_v47) (V m c main_v45)
      = Cert.RefTerm.refTail (F := Ideal)
          (Cert.RefAgg.refAgg (F := Ideal) (m ((c : Thread nD τ).loc main_arg0)) (m ((c : Thread nD τ).loc main_arg1))
            (m ((c : Thread nD τ).loc main_arg2)) (m ((c : Thread nD τ).loc main_arg3)))
          (m ((c : Thread nD τ).loc main_arg0)) (m ((c : Thread nD τ).loc main_arg4)) (m ((c : Thread nD τ).loc main_arg5))
          (m ((c : Thread nD τ).loc main_arg6)) (m ((c : Thread nD τ).loc main_arg7)) := by
  obtain ⟨hx0, hx2⟩ := Cert.Finite.reals_of_pre _ _ _ _ _ _ _ _ (hpre c)
  rw [Cert.KerHost.V_agg, V_main_arg0, V_main_arg2, V_main_arg6, Cert.KerHost.V_b, Cert.KerHost.V_w, Cert.KerHost.V_β,
    Cert.KerHost.V_rb]
  exact Cert.Bridge.dense_bridge _ _ _ _ _ _ _ _ hx0 hx2

/-- From memories that agree on the arguments, both programs run and end with the same result table. -/
theorem algebraic : Cert.algebraic_KernelIdeal_ReferenceIdeal := by
  intro m ρ m' ρ' hpre hagree
  refine ⟨fun c => Cert.Spec.denseOut (Cert.KernelIdeal.Gen.V m c Cert.KernelIdeal.main_v43)
      (Cert.KernelIdeal.Gen.V m c Cert.KernelIdeal.main_arg0) (Cert.KernelIdeal.Gen.V m c Cert.KernelIdeal.main_arg2)
      (Cert.KernelIdeal.Gen.V m c Cert.KernelIdeal.main_arg6) (Cert.KernelIdeal.Gen.V m c Cert.KernelIdeal.main_v44)
      (Cert.KernelIdeal.Gen.V m c Cert.KernelIdeal.main_v46) (Cert.KernelIdeal.Gen.V m c Cert.KernelIdeal.main_v47)
      (Cert.KernelIdeal.Gen.V m c Cert.KernelIdeal.main_v45), Cert.KerDense.run m ρ, ?_⟩
  refine (θ_run Cert.ReferenceIdeal.defs _ _).mono (fun _ h c => ⟨(h c).1.trans ?_, (h c).2⟩)
    (Cert.RefRun.run (F := Ideal) m' ρ')
  rw [Cert.RefTerm.refOut_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (result_eq m c hpre).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
